-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4096 : Shape := ⟨1, ![4096]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S100000x64 .f32) (main_arg1 : FVec F S50000x64 .f32) (main_arg2 : IVec S4096 32) (main_arg3 : IVec S4096 32) (main_arg4 : IVec S4096 32) (main_arg5 : IVec S1000000 32) (main_arg6 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S100000x64 : Shape := ⟨2, ![100000, 64]⟩
abbrev S50000x64 : Shape := ⟨2, ![50000, 64]⟩
abbrev S4096 : Shape := ⟨1, ![4096]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S50000x128 : Shape := ⟨2, ![50000, 128]⟩
abbrev S1000000x64 : Shape := ⟨2, ![1000000, 64]⟩
abbrev S5000x128 : Shape := ⟨2, ![5000, 128]⟩
abbrev S4096x1 : Shape := ⟨2, ![4096, 1]⟩
abbrev S4096x64 : Shape := ⟨2, ![4096, 64]⟩

abbrev nBuf : Space → Nat
  | .hbm => 173
  | .vmem => 42
  | .smem => 0
  | _ => 0

abbrev hbmTy0_0 (i : Nat) : BufTy := match i % 128 with
  | 0 => ⟨S100000x64, .f32⟩
  | 1 => ⟨S50000x64, .f32⟩
  | 2 => ⟨S4096, .i32⟩
  | 3 => ⟨S4096, .i32⟩
  | 4 => ⟨S4096, .i32⟩
  | 5 => ⟨S1000000, .i32⟩
  | 6 => ⟨S1000000, .i32⟩
  | 7 => ⟨S_, .f32⟩
  | 8 => ⟨S1000000, .f32⟩
  | 9 => ⟨S_, .f32⟩
  | 10 => ⟨S100000, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S100000, .f32⟩
  | 20 => ⟨S_, .f32⟩
  | 21 => ⟨S100000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S100000, .f32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S50000x128, .f32⟩
  | 41 => ⟨S_, .f32⟩
  | 42 => ⟨S100000x64, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x1, .f32⟩
  | 62 => ⟨S1000000x64, .f32⟩
  | 63 => ⟨S1000000x64, .f32⟩
  | 64 => ⟨S_, .f32⟩
  | 65 => ⟨S100000x64, .f32⟩
  | 66 => ⟨S1000000x1, .i32⟩
  | 67 => ⟨S100000x64, .f32⟩
  | 68 => ⟨S50000x128, .f32⟩
  | 69 => ⟨S50000x128, .f32⟩
  | 70 => ⟨S50000x128, .f32⟩
  | 71 => ⟨S50000x128, .f32⟩
  | 72 => ⟨S50000x128, .f32⟩
  | 73 => ⟨S100000x64, .f32⟩
  | 74 => ⟨S100000x64, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1000000x1, .f32⟩
  | 85 => ⟨S1000000x64, .f32⟩
  | 86 => ⟨S1000000x64, .f32⟩
  | 87 => ⟨S_, .f32⟩
  | 88 => ⟨S100000x64, .f32⟩
  | 89 => ⟨S1000000x1, .i32⟩
  | 90 => ⟨S100000x64, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S100000x64, .f32⟩
  | 97 => ⟨S100000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x1, .f32⟩
  | 108 => ⟨S1000000x64, .f32⟩
  | 109 => ⟨S1000000x64, .f32⟩
  | 110 => ⟨S_, .f32⟩
  | 111 => ⟨S100000x64, .f32⟩
  | 112 => ⟨S1000000x1, .i32⟩
  | 113 => ⟨S100000x64, .f32⟩
  | 114 => ⟨S50000x128, .f32⟩
  | 115 => ⟨S50000x128, .f32⟩
  | 116 => ⟨S50000x128, .f32⟩
  | 117 => ⟨S50000x128, .f32⟩
  | 118 => ⟨S50000x128, .f32⟩
  | 119 => ⟨S100000x64, .f32⟩
  | 120 => ⟨S100000x64, .f32⟩
  | 121 => ⟨S50000x128, .f32⟩
  | 122 => ⟨S50000x128, .f32⟩
  | 123 => ⟨S50000x128, .f32⟩
  | 124 => ⟨S100000x64, .f32⟩
  | 125 => ⟨S_, .i32⟩
  | 126 => ⟨S4096, .i32⟩
  | 127 => ⟨S4096, .i1⟩
  | _ => ⟨S100000x64, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x64, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x64, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x64, .f32⟩
  | 24 => ⟨S4096x64, .f32⟩
  | 25 => ⟨S_, .f32⟩
  | 26 => ⟨S4096, .f32⟩
  | 27 => ⟨S4096x64, .f32⟩
  | 28 => ⟨S_, .f32⟩
  | 29 => ⟨S4096, .f32⟩
  | 30 => ⟨S4096, .f32⟩
  | 31 => ⟨S_, .f32⟩
  | 32 => ⟨S4096, .f32⟩
  | 33 => ⟨S4096, .f32⟩
  | 34 => ⟨S4096, .f32⟩
  | 35 => ⟨S4096, .f32⟩
  | 36 => ⟨S4096, .i1⟩
  | 37 => ⟨S4096, .f32⟩
  | 38 => ⟨S4096, .f32⟩
  | 39 => ⟨S4096, .f32⟩
  | 40 => ⟨S4096, .f32⟩
  | 41 => ⟨S4096, .f32⟩
  | 42 => ⟨S4096, .f32⟩
  | 43 => ⟨S4096, .f32⟩
  | 44 => ⟨S4096, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_c_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68_0 : Ref sig .tc := ⟨.hbm, 94, rfl⟩
abbrev main_v68_1 : Ref sig .tc := ⟨.hbm, 95, rfl⟩
abbrev main_v69 : Ref sig .tc := ⟨.hbm, 96, rfl⟩
abbrev main_v70 : Ref sig .tc := ⟨.hbm, 97, rfl⟩
abbrev main_c_16 : Ref sig .tc := ⟨.hbm, 98, rfl⟩
abbrev main_v71 : Ref sig .tc := ⟨.hbm, 99, rfl⟩
abbrev main_v72 : Ref sig .tc := ⟨.hbm, 100, rfl⟩
abbrev main_c_17 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87_0 : Ref sig .tc := ⟨.hbm, 117, rfl⟩
abbrev main_v87_1 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_19 : Ref sig .tc := ⟨.hbm, 125, rfl⟩
abbrev main_v94 : Ref sig .tc := ⟨.hbm, 126, rfl⟩
abbrev main_v95 : Ref sig .tc := ⟨.hbm, 127, rfl⟩
abbrev main_c_20 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_c_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_25 : Ref sig .tc := ⟨.hbm, 153, rfl⟩
abbrev main_v116 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_call0_cst : Ref sig .tc := ⟨.hbm, 159, rfl⟩
abbrev main_call0_v0 : Ref sig .tc := ⟨.hbm, 160, rfl⟩
abbrev main_call0_v1 : Ref sig .tc := ⟨.hbm, 161, rfl⟩
abbrev main_call0_v2 : Ref sig .tc := ⟨.hbm, 162, rfl⟩
abbrev main_call0_v3 : Ref sig .tc := ⟨.hbm, 163, rfl⟩
abbrev main_call0_v4 : Ref sig .tc := ⟨.hbm, 164, rfl⟩
abbrev main_call0_v5 : Ref sig .tc := ⟨.hbm, 165, rfl⟩
abbrev main_call0_v6 : Ref sig .tc := ⟨.hbm, 166, rfl⟩
abbrev main_call0_v7 : Ref sig .tc := ⟨.hbm, 167, rfl⟩
abbrev main_call0_v8 : Ref sig .tc := ⟨.hbm, 168, rfl⟩
abbrev main_call0_v9 : Ref sig .tc := ⟨.hbm, 169, rfl⟩
abbrev main_call0_v10 : Ref sig .tc := ⟨.hbm, 170, rfl⟩
abbrev main_call0_v11 : Ref sig .tc := ⟨.hbm, 171, rfl⟩
abbrev main_v120 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S100000x64_S50000x128 : S100000x64.ShapeCasts S50000x128
  bcast_S_S100000x64 : S_.BroadcastsInDim S100000x64 (![] : Fin 0 → Fin S100000x64.rank)
  bcast_S1000000x1_S1000000x64_0_1 : S1000000x1.BroadcastsInDim S1000000x64 (![0, 1] : Fin 2 → Fin S1000000x64.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S100000x64 : S50000x128.ShapeCasts S100000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v46) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v65) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v68_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v68_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v84) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v87_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v87_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v90) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4096 : Shape := ⟨1, ![4096]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S4096x1 : Shape := ⟨2, ![4096, 1]⟩
abbrev S4096x64 : Shape := ⟨2, ![4096, 64]⟩

abbrev nBuf : Space → Nat
  | .hbm => 147
  | .vmem => 0
  | .smem => 0
  | _ => 0

abbrev hbmTy0_0 (i : Nat) : BufTy := match i % 128 with
  | 0 => ⟨S100000x64, .f32⟩
  | 1 => ⟨S50000x64, .f32⟩
  | 2 => ⟨S4096, .i32⟩
  | 3 => ⟨S4096, .i32⟩
  | 4 => ⟨S4096, .i32⟩
  | 5 => ⟨S1000000, .i32⟩
  | 6 => ⟨S1000000, .i32⟩
  | 7 => ⟨S_, .f32⟩
  | 8 => ⟨S1000000, .f32⟩
  | 9 => ⟨S_, .f32⟩
  | 10 => ⟨S100000, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S100000, .f32⟩
  | 20 => ⟨S_, .f32⟩
  | 21 => ⟨S100000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S100000, .f32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .f32⟩
  | 40 => ⟨S100000x64, .f32⟩
  | 41 => ⟨S100000x64, .f32⟩
  | 42 => ⟨S100000x64, .f32⟩
  | 43 => ⟨S100000x64, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x64, .f32⟩
  | 53 => ⟨S_, .f32⟩
  | 54 => ⟨S100000x64, .f32⟩
  | 55 => ⟨S1000000x1, .i32⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S100000x64, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S_, .f32⟩
  | 72 => ⟨S100000x64, .f32⟩
  | 73 => ⟨S1000000x1, .i32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S100000x64, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x64, .f32⟩
  | 89 => ⟨S_, .f32⟩
  | 90 => ⟨S100000x64, .f32⟩
  | 91 => ⟨S1000000x1, .i32⟩
  | 92 => ⟨S100000x64, .f32⟩
  | 93 => ⟨S100000x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S4096x64, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x64, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x64, .f32⟩
  | 126 => ⟨S4096x64, .f32⟩
  | 127 => ⟨S_, .f32⟩
  | _ => ⟨S100000x64, .f32⟩

abbrev hbmTy0_1 (i : Nat) : BufTy := match i % 128 with
  | 0 => ⟨S4096, .f32⟩
  | 1 => ⟨S4096x64, .f32⟩
  | 2 => ⟨S_, .f32⟩
  | 3 => ⟨S4096, .f32⟩
  | 4 => ⟨S4096, .f32⟩
  | 5 => ⟨S_, .f32⟩
  | 6 => ⟨S4096, .f32⟩
  | 7 => ⟨S4096, .f32⟩
  | 8 => ⟨S4096, .f32⟩
  | 9 => ⟨S4096, .f32⟩
  | 10 => ⟨S4096, .i1⟩
  | 11 => ⟨S4096, .f32⟩
  | 12 => ⟨S4096, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_c_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_c_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_20 : Ref sig .tc := ⟨.hbm, 108, rfl⟩
abbrev main_v79 : Ref sig .tc := ⟨.hbm, 109, rfl⟩
abbrev main_v80 : Ref sig .tc := ⟨.hbm, 110, rfl⟩
abbrev main_c_21 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_22 : Ref sig .tc := ⟨.hbm, 117, rfl⟩
abbrev main_v86 : Ref sig .tc := ⟨.hbm, 118, rfl⟩
abbrev main_v87 : Ref sig .tc := ⟨.hbm, 119, rfl⟩
abbrev main_c_23 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_24 : Ref sig .tc := ⟨.hbm, 127, rfl⟩
abbrev main_v94 : Ref sig .tc := ⟨.hbm, 128, rfl⟩
abbrev main_v95 : Ref sig .tc := ⟨.hbm, 129, rfl⟩
abbrev main_cst_25 : Ref sig .tc := ⟨.hbm, 130, rfl⟩
abbrev main_v96 : Ref sig .tc := ⟨.hbm, 131, rfl⟩
abbrev main_v97 : Ref sig .tc := ⟨.hbm, 132, rfl⟩
abbrev main_call0_cst : Ref sig .tc := ⟨.hbm, 133, rfl⟩
abbrev main_call0_v0 : Ref sig .tc := ⟨.hbm, 134, rfl⟩
abbrev main_call0_v1 : Ref sig .tc := ⟨.hbm, 135, rfl⟩
abbrev main_call0_v2 : Ref sig .tc := ⟨.hbm, 136, rfl⟩
abbrev main_call0_v3 : Ref sig .tc := ⟨.hbm, 137, rfl⟩
abbrev main_call0_v4 : Ref sig .tc := ⟨.hbm, 138, rfl⟩
abbrev main_call0_v5 : Ref sig .tc := ⟨.hbm, 139, rfl⟩
abbrev main_call0_v6 : Ref sig .tc := ⟨.hbm, 140, rfl⟩
abbrev main_call0_v7 : Ref sig .tc := ⟨.hbm, 141, rfl⟩
abbrev main_call0_v8 : Ref sig .tc := ⟨.hbm, 142, rfl⟩
abbrev main_call0_v9 : Ref sig .tc := ⟨.hbm, 143, rfl⟩
abbrev main_call0_v10 : Ref sig .tc := ⟨.hbm, 144, rfl⟩
abbrev main_call0_v11 : Ref sig .tc := ⟨.hbm, 145, rfl⟩
abbrev main_v98 : Ref sig .tc := ⟨.hbm, 146, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.KernelRun.lean ====
/-
  The idealized kernel program's run, with its result named.

  The program is a line of host operations cut by four kernel regions. Its buffers' contents at each cut are a fold
  from the launch memory: a stretch of host operations applies them in order, a region replaces its arrays by what
  its write-backs leave. Every weakly fair execution terminates without a fault in a state whose unscoped buffers
  hold the last fold; read at the result buffer and at the seven argument buffers, that is the statement below.
-/
import proofs.«115500_j63857573757118_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    fold's contents and the argument buffers end as launched. -/
theorem run_result : θ_run defs (onTc (τ := τ) (main (F := F))) ⟨m, fun _ => 0, ρ⟩ (fun r => ∀ c : Dev nD,
      r.2.mem ((c.tc : Thread nD τ).loc main_v120) = W10 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v120 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Run

end
-- ==== Proof.Layers.lean ====
/-
  The layer arithmetic of the degree-normalized propagation, as pure functions of the argument arrays.

  A node's scale is (in-degree + out-degree, at least 1)^(-1/2); the degrees are sums of ones scattered at the edge
  ends. One propagation layer gathers the embedding rows at the edge sources, scales each gathered row by the
  source's scale, sums the rows at the edge targets, and scales each summed row by the target's scale. The running
  sum of the layers' embeddings is divided by four at the end, and the loss is a softplus of a difference of two
  row-wise inner products of gathered rows. The kernels see every (100000, 64) array re-laid as (50000, 128): the
  same elements in row-major order ("wide"); re-laying back ("narrow") undoes it.
-/
import proofs.«115500_j63857573757118_2_alg».proof.KernelIdeal
import Idealize.ShloMosaic.Lib.Pipeline.Value

noncomputable section

namespace Cert.KernelIdeal.Layers

open Cert.KernelIdeal Idealize.ShloMosaic

variable [Facts₀]
open Facts₀

variable {F : FTy → Type} [FloatOps F]

/-- An edge-end index array as start indices of a gather or scatter: a negative entry counts from the end. -/
def wrapIdx (x : (⟨S1000000, .i32⟩ : BufTy).Contents (Elt F)) : (⟨S1000000x1, .i32⟩ : BufTy).Contents (Elt F) :=
  (broadcastInDim S1000000x1 ![0] bcast_S1000000_S1000000x1_0 (select (cmpi .slt x (broadcastInDim S1000000 ![] bcast_S_S1000000 (constantI S_ 32 0#32))) (addi x (broadcastInDim S1000000 ![] bcast_S_S1000000 (constantI S_ 32 100000#32))) x))

/-- Each node's scale: (in-degree + out-degree, at least one) to the power -1/2, the degrees counted by
    scattering ones at the edge targets (`x6`) and at the edge sources (`x5`). -/
def nodeScale (x5 x6 : (⟨S1000000, .i32⟩ : BufTy).Contents (Elt F)) : (⟨S100000, .f32⟩ : BufTy).Contents (Elt F) :=
  Host.powf
    (maximumf
      (addf
        (Host.scatterAdd scatter_S100000_S1000000x1_S1000000_n_0_0_1
          (broadcastInDim S100000 ![] bcast_S_S100000 (constant S_ .f32 0x00000000#32))
          (wrapIdx (F := F) x6)
          (broadcastInDim S1000000 ![] bcast_S_S1000000 (constant S_ .f32 0x3F800000#32)))
        (Host.scatterAdd scatter_S100000_S1000000x1_S1000000_n_0_0_1
          (broadcastInDim S100000 ![] bcast_S_S100000 (constant S_ .f32 0x00000000#32))
          (wrapIdx (F := F) x5)
          (broadcastInDim S1000000 ![] bcast_S_S1000000 (constant S_ .f32 0x3F800000#32))))
      (broadcastInDim S100000 ![] bcast_S_S100000 (constant S_ .f32 0x3F800000#32)))
    (broadcastInDim S100000 ![] bcast_S_S100000 (constant S_ .f32 0xBF000000#32))

/-- The node scales as a (100000, 64) table: row `r` is the constant `nodeScale r`. -/
def scaleTable (x5 x6 : (⟨S1000000, .i32⟩ : BufTy).Contents (Elt F)) : (⟨S100000x64, .f32⟩ : BufTy).Contents (Elt F) :=
  broadcastInDim S100000x64 ![0, 1] bcast_S100000x1_S100000x64_0_1
    (broadcastInDim S100000x1 ![0] bcast_S100000_S100000x1_0 (nodeScale (F := F) x5 x6))

/-- The scale of each edge's source node. -/
def edgeScale (x5 x6 : (⟨S1000000, .i32⟩ : BufTy).Contents (Elt F)) : (⟨S1000000, .f32⟩ : BufTy).Contents (Elt F) :=
  Host.gather gather_S100000_S1000000x1_S1000000_n_0_n_n_0_1_1 (nodeScale (F := F) x5 x6) (wrapIdx (F := F) x5)

/-- The all-zero (100000, 64) array. -/
def zeros : (⟨S100000x64, .f32⟩ : BufTy).Contents (Elt F) :=
  broadcastInDim S100000x64 ![] bcast_S_S100000x64 (constant S_ .f32 0x00000000#32)

/-- One layer's aggregation, scaling AFTER the gather: the rows of `e` at the edge sources, each scaled by its
    edge's factor `nh`, summed at the edge targets. -/
def aggregate (e : (⟨S100000x64, .f32⟩ : BufTy).Contents (Elt F)) (nh : (⟨S1000000, .f32⟩ : BufTy).Contents (Elt F)) (x5 x6 : (⟨S1000000, .i32⟩ : BufTy).Contents (Elt F)) : (⟨S100000x64, .f32⟩ : BufTy).Contents (Elt F) :=
  Host.scatterAdd scatter_S100000x64_S1000000x1_S1000000x64_1_0_0_1
    (zeros (F := F))
    (broadcastInDim S1000000x1 ![0] bcast_S1000000_S1000000x1_0 x6)
    (mulf
      (Host.gather gather_S100000x64_S1000000x1_S1000000x64_1_0_n_n_0_1_164 e (wrapIdx (F := F) x5))
      (broadcastInDim S1000000x64 ![0, 1] bcast_S1000000x1_S1000000x64_0_1
        (broadcastInDim S1000000x1 ![0] bcast_S1000000_S1000000x1_0 nh)))

/-- The same aggregation, scaling BEFORE the gather: the rows of `e` times the scale table, gathered at the edge
    sources and summed at the edge targets. -/
def aggregatePre (e : (⟨S100000x64, .f32⟩ : BufTy).Contents (Elt F)) (x5 x6 : (⟨S1000000, .i32⟩ : BufTy).Contents (Elt F)) : (⟨S100000x64, .f32⟩ : BufTy).Contents (Elt F) :=
  Host.scatterAdd scatter_S100000x64_S1000000x1_S1000000x64_1_0_0_1
    (zeros (F := F))
    (broadcastInDim S1000000x1 ![0] bcast_S1000000_S1000000x1_0 x6)
    (Host.gather gather_S100000x64_S1000000x1_S1000000x64_1_0_n_n_0_1_164 (mulf e (scaleTable (F := F) x5 x6)) (wrapIdx (F := F) x5))

/-- A (100000, 64) array re-laid as (50000, 128), row-major order kept. -/
def wide (a : (⟨S100000x64, .f32⟩ : BufTy).Contents (Elt F)) : (⟨S50000x128, .f32⟩ : BufTy).Contents (Elt F) :=
  fun i => shapeCast S50000x128 a shapeCasts_S100000x64_S50000x128 i

/-- A (50000, 128) array re-laid as (100000, 64), row-major order kept. -/
def narrow (b : (⟨S50000x128, .f32⟩ : BufTy).Contents (Elt F)) : (⟨S100000x64, .f32⟩ : BufTy).Contents (Elt F) :=
  fun i => shapeCast S100000x64 b shapeCasts_S50000x128_S100000x64 i

/-- Re-laying there and back is the identity. -/
theorem narrow_wide (a : (⟨S100000x64, .f32⟩ : BufTy).Contents (Elt F)) : narrow (F := F) (wide a) = a :=
  shapeCast_shapeCast a shapeCasts_S100000x64_S50000x128 shapeCasts_S50000x128_S100000x64

/-- Re-laying moves elements, so it commutes with an elementwise sum. -/
theorem narrow_add (a b : (⟨S100000x64, .f32⟩ : BufTy).Contents (Elt F)) :
    narrow (F := F) (fun i => FloatOps.addf (wide a i) (wide b i)) = addf a b := by
  have h : (fun i => FloatOps.addf (wide (F := F) a i) (wide b i)) = wide (addf a b) := rfl
  rw [h, narrow_wide]

/-- Re-laying moves elements, so it commutes with an elementwise product. -/
theorem narrow_mul (a b : (⟨S100000x64, .f32⟩ : BufTy).Contents (Elt F)) :
    narrow (F := F) (fun i => FloatOps.mulf (wide a i) (wide b i)) = mulf a b := by
  have h : (fun i => FloatOps.mulf (wide (F := F) a i) (wide b i)) = wide (mulf a b) := rfl
  rw [h, narrow_wide]

/-- The last kernel's output, re-laid back: the sum of the two arrays times one quarter, element by element. -/
theorem narrow_quarter (a b : (⟨S100000x64, .f32⟩ : BufTy).Contents (Elt F)) :
    narrow (F := F) (fun i => FloatOps.mulf (FloatOps.addf (wide a i) (wide b i)) (FloatOps.ofBits .f32 0x3E800000#32))
      = fun j => FloatOps.mulf (FloatOps.addf (a j) (b j)) (FloatOps.ofBits .f32 0x3E800000#32) := by
  have h : (fun i => FloatOps.mulf (FloatOps.addf (wide (F := F) a i) (wide b i)) (FloatOps.ofBits .f32 0x3E800000#32))
      = wide (fun j => FloatOps.mulf (FloatOps.addf (a j) (b j)) (FloatOps.ofBits .f32 0x3E800000#32)) := rfl
  rw [h, narrow_wide]

/-! ## The layers -/

/-- One layer's new embedding: the aggregation scaled by the target's scale. -/
def layer (e : (⟨S100000x64, .f32⟩ : BufTy).Contents (Elt F)) (x5 x6 : (⟨S1000000, .i32⟩ : BufTy).Contents (Elt F)) : (⟨S100000x64, .f32⟩ : BufTy).Contents (Elt F) :=
  mulf (aggregate e (edgeScale (F := F) x5 x6) x5 x6) (scaleTable (F := F) x5 x6)

/-- The embeddings after one, two and three layers. -/
def emb1 (x0 : (⟨S100000x64, .f32⟩ : BufTy).Contents (Elt F)) (x5 x6 : (⟨S1000000, .i32⟩ : BufTy).Contents (Elt F)) : (⟨S100000x64, .f32⟩ : BufTy).Contents (Elt F) := layer x0 x5 x6
def emb2 (x0 : (⟨S100000x64, .f32⟩ : BufTy).Contents (Elt F)) (x5 x6 : (⟨S1000000, .i32⟩ : BufTy).Contents (Elt F)) : (⟨S100000x64, .f32⟩ : BufTy).Contents (Elt F) := layer (emb1 x0 x5 x6) x5 x6
def emb3 (x0 : (⟨S100000x64, .f32⟩ : BufTy).Contents (Elt F)) (x5 x6 : (⟨S1000000, .i32⟩ : BufTy).Contents (Elt F)) : (⟨S100000x64, .f32⟩ : BufTy).Contents (Elt F) := layer (emb2 x0 x5 x6) x5 x6

/-- The running sum of the embeddings: zero plus the input, then plus each layer's output in turn. -/
def acc1 (x0 : (⟨S100000x64, .f32⟩ : BufTy).Contents (Elt F)) : (⟨S100000x64, .f32⟩ : BufTy).Contents (Elt F) := addf (zeros (F := F)) x0
def acc2 (x0 : (⟨S100000x64, .f32⟩ : BufTy).Contents (Elt F)) (x5 x6 : (⟨S1000000, .i32⟩ : BufTy).Contents (Elt F)) : (⟨S100000x64, .f32⟩ : BufTy).Contents (Elt F) := addf (acc1 x0) (emb1 x0 x5 x6)
def acc3 (x0 : (⟨S100000x64, .f32⟩ : BufTy).Contents (Elt F)) (x5 x6 : (⟨S1000000, .i32⟩ : BufTy).Contents (Elt F)) : (⟨S100000x64, .f32⟩ : BufTy).Contents (Elt F) := addf (acc2 x0 x5 x6) (emb2 x0 x5 x6)

/-- The item embedding as the kernels leave it: (running sum + last layer) times one quarter. -/
def itemQuarter (x0 : (⟨S100000x64, .f32⟩ : BufTy).Contents (Elt F)) (x5 x6 : (⟨S1000000, .i32⟩ : BufTy).Contents (Elt F)) : (⟨S100000x64, .f32⟩ : BufTy).Contents (Elt F) :=
  fun j => FloatOps.mulf (FloatOps.addf (acc3 x0 x5 x6 j) (emb3 x0 x5 x6 j)) (FloatOps.ofBits .f32 0x3E800000#32)

end Cert.KernelIdeal.Layers

end
-- ==== Proof.Loss.lean ====
/-
  The pairwise ranking loss, as one function of the item embedding table, the user embedding table and the three
  index arrays: for each of the 4096 triples the user's row times the positive item's row and times the negative
  item's row, each summed over the 64 columns; the difference of the two scores through softplus, written
  max(d, 0) + log1p(exp(-|d|)) and guarded against a difference that is not equal to itself.
-/
import proofs.«115500_j63857573757118_2_alg».proof.KernelIdeal

noncomputable section

namespace Cert.KernelIdeal.Loss

open Cert.KernelIdeal Idealize.ShloMosaic

variable [Facts₀]
open Facts₀

variable {F : FTy → Type} [FloatOps F]

/-- A batch index array as start indices of a gather into a table of `n` rows: a negative entry counts from the end. -/
def wrapBatch (x : (⟨S4096, .i32⟩ : BufTy).Contents (Elt F)) (n : BitVec 32) : (⟨S4096x1, .i32⟩ : BufTy).Contents (Elt F) :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 n))) x)

/-- The score of each triple's user against the item rows chosen by `xk`: the row-wise inner product. -/
def score (item : (⟨S100000x64, .f32⟩ : BufTy).Contents (Elt F)) (x1 : (⟨S50000x64, .f32⟩ : BufTy).Contents (Elt F)) (x2 xk : (⟨S4096, .i32⟩ : BufTy).Contents (Elt F)) : (⟨S4096, .f32⟩ : BufTy).Contents (Elt F) :=
  Host.reduceAdd
    (mulf
      (Host.gather gather_S50000x64_S4096x1_S4096x64_1_0_n_n_0_1_164 x1 (wrapBatch (F := F) x2 50000#32))
      (Host.gather gather_S100000x64_S4096x1_S4096x64_1_0_n_n_0_1_164 item (wrapBatch (F := F) xk 100000#32)))
    (constant S_ .f32 0x00000000#32) reducesTo_S4096x64_S4096_d1 h_S_

/-- The all-zero vector of 4096 entries. -/
def zero4096 : (⟨S4096, .f32⟩ : BufTy).Contents (Elt F) :=
  broadcastInDim S4096 ![] bcast_S_S4096 (constant S_ .f32 0x00000000#32)

/-- softplus of `d`, entry by entry. -/
def softplus (d : (⟨S4096, .f32⟩ : BufTy).Contents (Elt F)) : (⟨S4096, .f32⟩ : BufTy).Contents (Elt F) :=
  select (cmpf .une (subf d (zero4096 (F := F))) (subf d (zero4096 (F := F))))
    (addf d (zero4096 (F := F)))
    (addf (maximumf d (zero4096 (F := F)))
      (Host.log1p (Host.exp (Host.negf (Host.absf (subf d (zero4096 (F := F))))))))

/-- The loss: softplus of (negative score − positive score). `x3` indexes the positive items, `x4` the negative. -/
def lossOf (item : (⟨S100000x64, .f32⟩ : BufTy).Contents (Elt F)) (x1 : (⟨S50000x64, .f32⟩ : BufTy).Contents (Elt F)) (x2 x3 x4 : (⟨S4096, .i32⟩ : BufTy).Contents (Elt F)) : (⟨S4096, .f32⟩ : BufTy).Contents (Elt F) :=
  softplus (subf (score item x1 x2 x4) (score item x1 x2 x3))

end Cert.KernelIdeal.Loss

end
-- ==== Proof.Stretches.lean ====
/-
  The host stretches of the idealized kernel program, read: what each stretch of host operations leaves in the
  buffers the next kernel region (or the result) reads, as the layer functions of what it found. A stretch is a fold
  of its operations over the buffer contents it starts from; the contents are a parameter here.
-/
import proofs.«115500_j63857573757118_2_alg».proof.Proof.Gen.KernelIdeal.Launch
import proofs.«115500_j63857573757118_2_alg».proof.Proof.Layers
import proofs.«115500_j63857573757118_2_alg».proof.Proof.Loss
import Idealize.ShloMosaic.Lib.StableHlo.Run

set_option maxRecDepth 16384

noncomputable section

namespace Cert.KernelIdeal.Stretches

open Cert.KernelIdeal Cert.KernelIdeal.Gen Cert.KernelIdeal.Layers Cert.KernelIdeal.Loss
open Idealize.ShloMosaic Idealize.ShloMosaic.TcCoe Idealize.ShloMosaic.StableHlo

variable {F : FTy → Type} [FloatOps F]
variable (X : Valuation τ sig (Elt F))

/-! ## Before the first region: the node scales, the first aggregation, the re-laid operands -/

set_option maxHeartbeats 4000000 in
theorem first_scale : StableHlo.after hostOps0 X (Proc.devRef .tc main_v24) = wide (scaleTable (X (Proc.devRef .tc main_arg5)) (X (Proc.devRef .tc main_arg6))) := by
  after_results_simp; rfl
set_option maxHeartbeats 4000000 in
theorem first_acc : StableHlo.after hostOps0 X (Proc.devRef .tc main_v46) = wide (zeros (F := F)) := by
  after_results_simp; rfl
set_option maxHeartbeats 4000000 in
theorem first_emb : StableHlo.after hostOps0 X (Proc.devRef .tc main_v47) = wide (X (Proc.devRef .tc main_arg0)) := by
  after_results_simp; rfl
set_option maxHeartbeats 4000000 in
theorem first_agg : StableHlo.after hostOps0 X (Proc.devRef .tc main_v48)
    = wide (aggregate (X (Proc.devRef .tc main_arg0)) (edgeScale (X (Proc.devRef .tc main_arg5)) (X (Proc.devRef .tc main_arg6))) (X (Proc.devRef .tc main_arg5)) (X (Proc.devRef .tc main_arg6))) := by
  after_results_simp; rfl
set_option maxHeartbeats 4000000 in
theorem first_edgeScale : StableHlo.after hostOps0 X (Proc.devRef .tc main_v32) = edgeScale (X (Proc.devRef .tc main_arg5)) (X (Proc.devRef .tc main_arg6)) := by
  after_results_simp; rfl
set_option maxHeartbeats 4000000 in
theorem first_arg1 : StableHlo.after hostOps0 X (Proc.devRef .tc main_arg1) = X (Proc.devRef .tc main_arg1) := by
  after_results_simp
set_option maxHeartbeats 4000000 in
theorem first_arg2 : StableHlo.after hostOps0 X (Proc.devRef .tc main_arg2) = X (Proc.devRef .tc main_arg2) := by
  after_results_simp
set_option maxHeartbeats 4000000 in
theorem first_arg3 : StableHlo.after hostOps0 X (Proc.devRef .tc main_arg3) = X (Proc.devRef .tc main_arg3) := by
  after_results_simp
set_option maxHeartbeats 4000000 in
theorem first_arg4 : StableHlo.after hostOps0 X (Proc.devRef .tc main_arg4) = X (Proc.devRef .tc main_arg4) := by
  after_results_simp
set_option maxHeartbeats 4000000 in
theorem first_arg5 : StableHlo.after hostOps0 X (Proc.devRef .tc main_arg5) = X (Proc.devRef .tc main_arg5) := by
  after_results_simp
set_option maxHeartbeats 4000000 in
theorem first_arg6 : StableHlo.after hostOps0 X (Proc.devRef .tc main_arg6) = X (Proc.devRef .tc main_arg6) := by
  after_results_simp

/-! ## Between two layer regions (second): the region's outputs re-laid back, the next aggregation, re-laid again -/

set_option maxHeartbeats 4000000 in
theorem second_acc : StableHlo.after hostOps1 X (Proc.devRef .tc main_v65) = wide (narrow (X (Proc.devRef .tc main_v49_0))) := by
  after_results_simp; rfl
set_option maxHeartbeats 4000000 in
theorem second_emb : StableHlo.after hostOps1 X (Proc.devRef .tc main_v66) = wide (narrow (X (Proc.devRef .tc main_v49_1))) := by
  after_results_simp; rfl
set_option maxHeartbeats 4000000 in
theorem second_agg : StableHlo.after hostOps1 X (Proc.devRef .tc main_v67)
    = wide (aggregate (narrow (X (Proc.devRef .tc main_v49_1))) (X (Proc.devRef .tc main_v32)) (X (Proc.devRef .tc main_arg5)) (X (Proc.devRef .tc main_arg6))) := by
  after_results_simp; rfl
set_option maxHeartbeats 4000000 in
theorem second_keep_v24 : StableHlo.after hostOps1 X (Proc.devRef .tc main_v24) = X (Proc.devRef .tc main_v24) := by
  after_results_simp
set_option maxHeartbeats 4000000 in
theorem second_keep_v32 : StableHlo.after hostOps1 X (Proc.devRef .tc main_v32) = X (Proc.devRef .tc main_v32) := by
  after_results_simp
set_option maxHeartbeats 4000000 in
theorem second_keep_arg1 : StableHlo.after hostOps1 X (Proc.devRef .tc main_arg1) = X (Proc.devRef .tc main_arg1) := by
  after_results_simp
set_option maxHeartbeats 4000000 in
theorem second_keep_arg2 : StableHlo.after hostOps1 X (Proc.devRef .tc main_arg2) = X (Proc.devRef .tc main_arg2) := by
  after_results_simp
set_option maxHeartbeats 4000000 in
theorem second_keep_arg3 : StableHlo.after hostOps1 X (Proc.devRef .tc main_arg3) = X (Proc.devRef .tc main_arg3) := by
  after_results_simp
set_option maxHeartbeats 4000000 in
theorem second_keep_arg4 : StableHlo.after hostOps1 X (Proc.devRef .tc main_arg4) = X (Proc.devRef .tc main_arg4) := by
  after_results_simp
set_option maxHeartbeats 4000000 in
theorem second_keep_arg5 : StableHlo.after hostOps1 X (Proc.devRef .tc main_arg5) = X (Proc.devRef .tc main_arg5) := by
  after_results_simp
set_option maxHeartbeats 4000000 in
theorem second_keep_arg6 : StableHlo.after hostOps1 X (Proc.devRef .tc main_arg6) = X (Proc.devRef .tc main_arg6) := by
  after_results_simp

/-! ## Between two layer regions (third): the region's outputs re-laid back, the next aggregation, re-laid again -/

set_option maxHeartbeats 4000000 in
theorem third_acc : StableHlo.after hostOps2 X (Proc.devRef .tc main_v84) = wide (narrow (X (Proc.devRef .tc main_v68_0))) := by
  after_results_simp; rfl
set_option maxHeartbeats 4000000 in
theorem third_emb : StableHlo.after hostOps2 X (Proc.devRef .tc main_v85) = wide (narrow (X (Proc.devRef .tc main_v68_1))) := by
  after_results_simp; rfl
set_option maxHeartbeats 4000000 in
theorem third_agg : StableHlo.after hostOps2 X (Proc.devRef .tc main_v86)
    = wide (aggregate (narrow (X (Proc.devRef .tc main_v68_1))) (X (Proc.devRef .tc main_v32)) (X (Proc.devRef .tc main_arg5)) (X (Proc.devRef .tc main_arg6))) := by
  after_results_simp; rfl
set_option maxHeartbeats 4000000 in
theorem third_keep_v24 : StableHlo.after hostOps2 X (Proc.devRef .tc main_v24) = X (Proc.devRef .tc main_v24) := by
  after_results_simp
set_option maxHeartbeats 4000000 in
theorem third_keep_v32 : StableHlo.after hostOps2 X (Proc.devRef .tc main_v32) = X (Proc.devRef .tc main_v32) := by
  after_results_simp
set_option maxHeartbeats 4000000 in
theorem third_keep_arg1 : StableHlo.after hostOps2 X (Proc.devRef .tc main_arg1) = X (Proc.devRef .tc main_arg1) := by
  after_results_simp
set_option maxHeartbeats 4000000 in
theorem third_keep_arg2 : StableHlo.after hostOps2 X (Proc.devRef .tc main_arg2) = X (Proc.devRef .tc main_arg2) := by
  after_results_simp
set_option maxHeartbeats 4000000 in
theorem third_keep_arg3 : StableHlo.after hostOps2 X (Proc.devRef .tc main_arg3) = X (Proc.devRef .tc main_arg3) := by
  after_results_simp
set_option maxHeartbeats 4000000 in
theorem third_keep_arg4 : StableHlo.after hostOps2 X (Proc.devRef .tc main_arg4) = X (Proc.devRef .tc main_arg4) := by
  after_results_simp
set_option maxHeartbeats 4000000 in
theorem third_keep_arg5 : StableHlo.after hostOps2 X (Proc.devRef .tc main_arg5) = X (Proc.devRef .tc main_arg5) := by
  after_results_simp
set_option maxHeartbeats 4000000 in
theorem third_keep_arg6 : StableHlo.after hostOps2 X (Proc.devRef .tc main_arg6) = X (Proc.devRef .tc main_arg6) := by
  after_results_simp

/-! ## Before the last region: the third layer's outputs re-laid back and again -/

set_option maxHeartbeats 4000000 in
theorem last_acc : StableHlo.after hostOps3 X (Proc.devRef .tc main_v90) = wide (narrow (X (Proc.devRef .tc main_v87_0))) := by
  after_results_simp; rfl
set_option maxHeartbeats 4000000 in
theorem last_emb : StableHlo.after hostOps3 X (Proc.devRef .tc main_v91) = wide (narrow (X (Proc.devRef .tc main_v87_1))) := by
  after_results_simp; rfl
set_option maxHeartbeats 4000000 in
theorem last_keep_arg1 : StableHlo.after hostOps3 X (Proc.devRef .tc main_arg1) = X (Proc.devRef .tc main_arg1) := by
  after_results_simp
set_option maxHeartbeats 4000000 in
theorem last_keep_arg2 : StableHlo.after hostOps3 X (Proc.devRef .tc main_arg2) = X (Proc.devRef .tc main_arg2) := by
  after_results_simp
set_option maxHeartbeats 4000000 in
theorem last_keep_arg3 : StableHlo.after hostOps3 X (Proc.devRef .tc main_arg3) = X (Proc.devRef .tc main_arg3) := by
  after_results_simp
set_option maxHeartbeats 4000000 in
theorem last_keep_arg4 : StableHlo.after hostOps3 X (Proc.devRef .tc main_arg4) = X (Proc.devRef .tc main_arg4) := by
  after_results_simp

/-! ## After the last region: the item table re-laid back, and the loss -/

set_option maxHeartbeats 4000000 in
theorem loss_result : StableHlo.after hostOps4_1 (StableHlo.after hostOps4 X) (Proc.devRef .tc main_v120)
    = lossOf (narrow (X (Proc.devRef .tc main_v92))) (X (Proc.devRef .tc main_arg1)) (X (Proc.devRef .tc main_arg2)) (X (Proc.devRef .tc main_arg3)) (X (Proc.devRef .tc main_arg4)) := by
  after_results_simp; rfl

end Cert.KernelIdeal.Stretches

end
-- ==== Proof.RegionArrays.lean ====
import proofs.«115500_j63857573757118_2_alg».proof.Proof.Gen.KernelIdeal.Frame
import Idealize.ShloMosaic.Lib.Pipeline.Value

noncomputable section

namespace Cert.KernelIdeal.RegionArrays

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! # What each region leaves in its arrays

The idealized kernel program has four regions, each a grid of 10 points over 50000 × 128 arrays cut into blocks of
5000 × 128: at point `t` every window stages block row `t` of its array, the body computes each output block from the
input blocks element by element, and the output blocks are written back. Since the 10 blocks of an output window fill
its array and the body is pointwise, the whole output array after the region is one pointwise function of the input
arrays as the region found them (`V`, the buffer contents when the region is entered). An input window is never
written back, so its array is left as found. -/

/-- The zero offsets of a whole-block access, spelt as the constant function. -/
theorem zero_offsets : (![0, 0] : Fin 2 → Nat) = fun _ => 0 := funext fun a => by fin_cases a <;> rfl

/-! ## Region 0

A grid of 10 points; every window's block is 5000 × 128 of a 50000 × 128 array, and point `t` works on block row `t`
(rows `5000 t` to `5000 t + 4999`, all 128 columns) of every window. Window 4 receives the sum of windows 0 and 1,
window 5 the product of windows 2 and 3, element by element. The 10 blocks of a window are disjoint and fill its array,
so after the region each output array is one pointwise function of the input arrays as the region found them. -/

/-- The sum payload is the pointwise sum of its two loaded blocks: both shape casts are to the same shape. -/
theorem k0_pay2_eq (x0 x1 : Vec F S5000x128 .f32) : k0_pay2 x0 x1 = addf x0 x1 := by
  unfold k0_pay2
  simp only [shapeCast_self]

/-- The product payload is the pointwise product of its two loaded blocks: both shape casts are to the same shape. -/
theorem k0_pay1_eq (x2 x3 : Vec F S5000x128 .f32) : k0_pay1 x2 x3 = mulf x2 x3 := by
  unfold k0_pay1
  simp only [shapeCast_self]

/-- The block index maps, decided over the 10 grid points: the two windows the sum reads move with its output
    window, which stays within block rows 0..9 of the only block column. -/
theorem index0_4 : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = win0_4.index t (1 : Fin 2)
    ∧ win0_4.index t (0 : Fin 2) ≤ 9
    ∧ win0_4.index t (1 : Fin 2) = 0 :=
  (by decide +kernel : ∀ t : Fin grid0.N, _)

/-- Likewise the two windows the product reads move with its output window. -/
theorem index0_5 : ∀ t : Fin cfg0.N, win0_2.index t (0 : Fin 2) = win0_5.index t (0 : Fin 2)
    ∧ win0_2.index t (1 : Fin 2) = win0_5.index t (1 : Fin 2)
    ∧ win0_3.index t (0 : Fin 2) = win0_5.index t (0 : Fin 2)
    ∧ win0_3.index t (1 : Fin 2) = win0_5.index t (1 : Fin 2)
    ∧ win0_5.index t (0 : Fin 2) ≤ 9
    ∧ win0_5.index t (1 : Fin 2) = 0 :=
  (by decide +kernel : ∀ t : Fin grid0.N, _)

/-- Every one of the 10 block rows of window 4 is some point's. -/
theorem onto0_4 : ∀ q : Fin 10, ∃ t : Fin cfg0.N, win0_4.index t = ![q.val, 0] :=
  (by decide +kernel : ∀ q : Fin 10, ∃ t : Fin grid0.N, win0_4.index t = ![q.val, 0])

/-- Every one of the 10 block rows of window 5 is some point's. -/
theorem onto0_5 : ∀ q : Fin 10, ∃ t : Fin cfg0.N, win0_5.index t = ![q.val, 0] :=
  (by decide +kernel : ∀ q : Fin 10, ∃ t : Fin grid0.N, win0_5.index t = ![q.val, 0])

/-- What point `t` writes back to window 4's array is block `t` of the pointwise sum of the arrays under windows 0
    and 1: the body stores the sum of the two staged blocks, and an element of a block sits in its array at block
    index × block size + its own coordinate, the same place for all three windows. -/
theorem flushed0_4_eq (c : Dev nD) (t : Fin cfg0.N) :
    (dat0 V c).flushed 4 t = ((cfg0.win 4).blk t).view.read (Elt F)
      (fun i => FloatOps.addf (V c main_v46 i) (V c main_v47 i) : S50000x128.Idx → Elt F .f32) := by
  show (cfg0.win 4).cut (grid0.coords t) ((dat0 V c).after 4 t) = _
  rw [after0_4]
  unfold out0_4
  rw [View.canon_unit_zero zero_offsets]
  simp only [View.ld_unit_zero (S := S5000x128) zero_offsets]
  rw [k0_pay2_eq]
  obtain ⟨e0, e1, e2, e3, e4, e5⟩ := index0_4 t
  funext j
  show FloatOps.addf (V c main_v46 (((cfg0.win 0).blk t).view.emb j)) (V c main_v47 (((cfg0.win 1).blk t).view.emb j)) = FloatOps.addf (V c main_v46 (((cfg0.win 4).blk t).view.emb j)) (V c main_v47 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega
  rw [h0, h1]

/-- What point `t` writes back to window 5's array is block `t` of the pointwise product of the arrays under
    windows 2 and 3, for the same reasons. -/
theorem flushed0_5_eq (c : Dev nD) (t : Fin cfg0.N) :
    (dat0 V c).flushed 5 t = ((cfg0.win 5).blk t).view.read (Elt F)
      (fun i => FloatOps.mulf (V c main_v48 i) (V c main_v24 i) : S50000x128.Idx → Elt F .f32) := by
  show (cfg0.win 5).cut (grid0.coords t) ((dat0 V c).after 5 t) = _
  rw [after0_5]
  unfold out0_5
  rw [View.canon_unit_zero zero_offsets]
  simp only [View.ld_unit_zero (S := S5000x128) zero_offsets]
  rw [k0_pay1_eq]
  obtain ⟨e0, e1, e2, e3, e4, e5⟩ := index0_5 t
  funext j
  show FloatOps.mulf (V c main_v48 (((cfg0.win 2).blk t).view.emb j)) (V c main_v24 (((cfg0.win 3).blk t).view.emb j)) = FloatOps.mulf (V c main_v48 (((cfg0.win 5).blk t).view.emb j)) (V c main_v24 (((cfg0.win 5).blk t).view.emb j))
  have h2 : ((cfg0.win 2).blk t).view.emb j = ((cfg0.win 5).blk t).view.emb j := by
    funext a; apply Fin.ext
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 128 + 1 * (j 1).val = win0_5.index t (1 : Fin 2) * 128 + 1 * (j 1).val; omega
  have h3 : ((cfg0.win 3).blk t).view.emb j = ((cfg0.win 5).blk t).view.emb j := by
    funext a; apply Fin.ext
    match a with
    | ⟨0, _⟩ => show win0_3.index t (0 : Fin 2) * 5000 + 1 * (j 0).val = win0_5.index t (0 : Fin 2) * 5000 + 1 * (j 0).val; omega
    | ⟨1, _⟩ => show win0_3.index t (1 : Fin 2) * 128 + 1 * (j 1).val = win0_5.index t (1 : Fin 2) * 128 + 1 * (j 1).val; omega
  rw [h2, h3]

/-- An index of window 4's array is in point `t`'s block iff each coordinate is in the block's range on its axis. -/
theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v49_0).slice (win0_4.rect t)).set ↔ _
  rw [View.set_slice_whole, Rect.mem_set_unit]
  exact Iff.rfl

/-- An index of window 5's array is in point `t`'s block iff each coordinate is in the block's range on its axis. -/
theorem mem_blk0_5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v49_1).slice (win0_5.rect t)).set ↔ _
  rw [View.set_slice_whole, Rect.mem_set_unit]
  exact Iff.rfl

/-- The 10 blocks of 5000 rows fill window 4's 50000 rows: row `r` is in the block of the point whose block row is
    `r / 5000`, and that point writes its block back. -/
theorem blocks_fill0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := onto0_4 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- Likewise the 10 blocks fill window 5's array. -/
theorem blocks_fill0_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := onto0_5 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After region 0, window 4's array is the pointwise sum of the arrays under windows 0 and 1 as the region found them. -/
theorem final0_4 (c : Dev nD) :
    (dat0 V c).arrAt 4 cfg0.N = (fun i => FloatOps.addf (V c main_v46 i) (V c main_v47 i) : S50000x128.Idx → Elt F .f32) :=
  (dat0 V c).arrAt_eq_of_cover 4 _ (fun t _ => flushed0_4_eq V c t) blocks_fill0_4

/-- After region 0, window 5's array is the pointwise product of the arrays under windows 2 and 3 as the region found them. -/
theorem final0_5 (c : Dev nD) :
    (dat0 V c).arrAt 5 cfg0.N = (fun i => FloatOps.mulf (V c main_v48 i) (V c main_v24 i) : S50000x128.Idx → Elt F .f32) :=
  (dat0 V c).arrAt_eq_of_cover 5 _ (fun t _ => flushed0_5_eq V c t) blocks_fill0_5

/-- Region 0 only reads its four input windows: their arrays end as the region found them. -/
theorem kept0 (c : Dev nD) (w : Fin 6) (hw : w.val < 4) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  exact ((dat0 V c).arrAt_in w hin _).trans (A_eq0 V c w)

/-- In particular the array under window 3, which later regions read again, passes through region 0 unchanged. -/
theorem kept0_3 (c : Dev nD) : (dat0 V c).arrAt 3 cfg0.N = V c main_v24 := kept0 V c 3 (by decide)

/-! ## Region 1

A grid of 10 points; every window's block is 5000 × 128 of a 50000 × 128 array, and point `t` works on block row `t`
(rows `5000 t` to `5000 t + 4999`, all 128 columns) of every window. Window 4 receives the sum of windows 0 and 1,
window 5 the product of windows 2 and 3, element by element. The 10 blocks of a window are disjoint and fill its array,
so after the region each output array is one pointwise function of the input arrays as the region found them. -/

/-- The sum payload is the pointwise sum of its two loaded blocks: both shape casts are to the same shape. -/
theorem k1_pay2_eq (x0 x1 : Vec F S5000x128 .f32) : k1_pay2 x0 x1 = addf x0 x1 := by
  unfold k1_pay2
  simp only [shapeCast_self]

/-- The product payload is the pointwise product of its two loaded blocks: both shape casts are to the same shape. -/
theorem k1_pay1_eq (x2 x3 : Vec F S5000x128 .f32) : k1_pay1 x2 x3 = mulf x2 x3 := by
  unfold k1_pay1
  simp only [shapeCast_self]

/-- The block index maps, decided over the 10 grid points: the two windows the sum reads move with its output
    window, which stays within block rows 0..9 of the only block column. -/
theorem index1_4 : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_4.index t (0 : Fin 2) ≤ 9
    ∧ win1_4.index t (1 : Fin 2) = 0 :=
  (by decide +kernel : ∀ t : Fin grid1.N, _)

/-- Likewise the two windows the product reads move with its output window. -/
theorem index1_5 : ∀ t : Fin cfg1.N, win1_2.index t (0 : Fin 2) = win1_5.index t (0 : Fin 2)
    ∧ win1_2.index t (1 : Fin 2) = win1_5.index t (1 : Fin 2)
    ∧ win1_3.index t (0 : Fin 2) = win1_5.index t (0 : Fin 2)
    ∧ win1_3.index t (1 : Fin 2) = win1_5.index t (1 : Fin 2)
    ∧ win1_5.index t (0 : Fin 2) ≤ 9
    ∧ win1_5.index t (1 : Fin 2) = 0 :=
  (by decide +kernel : ∀ t : Fin grid1.N, _)

/-- Every one of the 10 block rows of window 4 is some point's. -/
theorem onto1_4 : ∀ q : Fin 10, ∃ t : Fin cfg1.N, win1_4.index t = ![q.val, 0] :=
  (by decide +kernel : ∀ q : Fin 10, ∃ t : Fin grid1.N, win1_4.index t = ![q.val, 0])

/-- Every one of the 10 block rows of window 5 is some point's. -/
theorem onto1_5 : ∀ q : Fin 10, ∃ t : Fin cfg1.N, win1_5.index t = ![q.val, 0] :=
  (by decide +kernel : ∀ q : Fin 10, ∃ t : Fin grid1.N, win1_5.index t = ![q.val, 0])

/-- What point `t` writes back to window 4's array is block `t` of the pointwise sum of the arrays under windows 0
    and 1: the body stores the sum of the two staged blocks, and an element of a block sits in its array at block
    index × block size + its own coordinate, the same place for all three windows. -/
theorem flushed1_4_eq (c : Dev nD) (t : Fin cfg1.N) :
    (dat1 V c).flushed 4 t = ((cfg1.win 4).blk t).view.read (Elt F)
      (fun i => FloatOps.addf (V c main_v65 i) (V c main_v66 i) : S50000x128.Idx → Elt F .f32) := by
  show (cfg1.win 4).cut (grid1.coords t) ((dat1 V c).after 4 t) = _
  rw [after1_4]
  unfold out1_4
  rw [View.canon_unit_zero zero_offsets]
  simp only [View.ld_unit_zero (S := S5000x128) zero_offsets]
  rw [k1_pay2_eq]
  obtain ⟨e0, e1, e2, e3, e4, e5⟩ := index1_4 t
  funext j
  show FloatOps.addf (V c main_v65 (((cfg1.win 0).blk t).view.emb j)) (V c main_v66 (((cfg1.win 1).blk t).view.emb j)) = FloatOps.addf (V c main_v65 (((cfg1.win 4).blk t).view.emb j)) (V c main_v66 (((cfg1.win 4).blk t).view.emb j))
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  rw [h0, h1]

/-- What point `t` writes back to window 5's array is block `t` of the pointwise product of the arrays under
    windows 2 and 3, for the same reasons. -/
theorem flushed1_5_eq (c : Dev nD) (t : Fin cfg1.N) :
    (dat1 V c).flushed 5 t = ((cfg1.win 5).blk t).view.read (Elt F)
      (fun i => FloatOps.mulf (V c main_v67 i) (V c main_v24 i) : S50000x128.Idx → Elt F .f32) := by
  show (cfg1.win 5).cut (grid1.coords t) ((dat1 V c).after 5 t) = _
  rw [after1_5]
  unfold out1_5
  rw [View.canon_unit_zero zero_offsets]
  simp only [View.ld_unit_zero (S := S5000x128) zero_offsets]
  rw [k1_pay1_eq]
  obtain ⟨e0, e1, e2, e3, e4, e5⟩ := index1_5 t
  funext j
  show FloatOps.mulf (V c main_v67 (((cfg1.win 2).blk t).view.emb j)) (V c main_v24 (((cfg1.win 3).blk t).view.emb j)) = FloatOps.mulf (V c main_v67 (((cfg1.win 5).blk t).view.emb j)) (V c main_v24 (((cfg1.win 5).blk t).view.emb j))
  have h2 : ((cfg1.win 2).blk t).view.emb j = ((cfg1.win 5).blk t).view.emb j := by
    funext a; apply Fin.ext
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 5000 + 1 * (j 0).val = win1_5.index t (0 : Fin 2) * 5000 + 1 * (j 0).val; omega
    | ⟨1, _⟩ => show win1_3.index t (1 : Fin 2) * 128 + 1 * (j 1).val = win1_5.index t (1 : Fin 2) * 128 + 1 * (j 1).val; omega
  rw [h2, h3]

/-- An index of window 4's array is in point `t`'s block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v68_0).slice (win1_4.rect t)).set ↔ _
  rw [View.set_slice_whole, Rect.mem_set_unit]
  exact Iff.rfl

/-- An index of window 5's array is in point `t`'s block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v68_1).slice (win1_5.rect t)).set ↔ _
  rw [View.set_slice_whole, Rect.mem_set_unit]
  exact Iff.rfl

/-- The 10 blocks of 5000 rows fill window 4's 50000 rows: row `r` is in the block of the point whose block row is
    `r / 5000`, and that point writes its block back. -/
theorem blocks_fill1_4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := onto1_4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- Likewise the 10 blocks fill window 5's array. -/
theorem blocks_fill1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto1_5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After region 1, window 4's array is the pointwise sum of the arrays under windows 0 and 1 as the region found them. -/
theorem final1_4 (c : Dev nD) :
    (dat1 V c).arrAt 4 cfg1.N = (fun i => FloatOps.addf (V c main_v65 i) (V c main_v66 i) : S50000x128.Idx → Elt F .f32) :=
  (dat1 V c).arrAt_eq_of_cover 4 _ (fun t _ => flushed1_4_eq V c t) blocks_fill1_4

/-- After region 1, window 5's array is the pointwise product of the arrays under windows 2 and 3 as the region found them. -/
theorem final1_5 (c : Dev nD) :
    (dat1 V c).arrAt 5 cfg1.N = (fun i => FloatOps.mulf (V c main_v67 i) (V c main_v24 i) : S50000x128.Idx → Elt F .f32) :=
  (dat1 V c).arrAt_eq_of_cover 5 _ (fun t _ => flushed1_5_eq V c t) blocks_fill1_5

/-- Region 1 only reads its four input windows: their arrays end as the region found them. -/
theorem kept1 (c : Dev nD) (w : Fin 6) (hw : w.val < 4) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  exact ((dat1 V c).arrAt_in w hin _).trans (A_eq1 V c w)

/-- In particular the array under window 3, which later regions read again, passes through region 1 unchanged. -/
theorem kept1_3 (c : Dev nD) : (dat1 V c).arrAt 3 cfg1.N = V c main_v24 := kept1 V c 3 (by decide)

/-! ## Region 2

A grid of 10 points; every window's block is 5000 × 128 of a 50000 × 128 array, and point `t` works on block row `t`
(rows `5000 t` to `5000 t + 4999`, all 128 columns) of every window. Window 4 receives the sum of windows 0 and 1,
window 5 the product of windows 2 and 3, element by element. The 10 blocks of a window are disjoint and fill its array,
so after the region each output array is one pointwise function of the input arrays as the region found them. -/

/-- The sum payload is the pointwise sum of its two loaded blocks: both shape casts are to the same shape. -/
theorem k2_pay2_eq (x0 x1 : Vec F S5000x128 .f32) : k2_pay2 x0 x1 = addf x0 x1 := by
  unfold k2_pay2
  simp only [shapeCast_self]

/-- The product payload is the pointwise product of its two loaded blocks: both shape casts are to the same shape. -/
theorem k2_pay1_eq (x2 x3 : Vec F S5000x128 .f32) : k2_pay1 x2 x3 = mulf x2 x3 := by
  unfold k2_pay1
  simp only [shapeCast_self]

/-- The block index maps, decided over the 10 grid points: the two windows the sum reads move with its output
    window, which stays within block rows 0..9 of the only block column. -/
theorem index2_4 : ∀ t : Fin cfg2.N, win2_0.index t (0 : Fin 2) = win2_4.index t (0 : Fin 2)
    ∧ win2_0.index t (1 : Fin 2) = win2_4.index t (1 : Fin 2)
    ∧ win2_1.index t (0 : Fin 2) = win2_4.index t (0 : Fin 2)
    ∧ win2_1.index t (1 : Fin 2) = win2_4.index t (1 : Fin 2)
    ∧ win2_4.index t (0 : Fin 2) ≤ 9
    ∧ win2_4.index t (1 : Fin 2) = 0 :=
  (by decide +kernel : ∀ t : Fin grid2.N, _)

/-- Likewise the two windows the product reads move with its output window. -/
theorem index2_5 : ∀ t : Fin cfg2.N, win2_2.index t (0 : Fin 2) = win2_5.index t (0 : Fin 2)
    ∧ win2_2.index t (1 : Fin 2) = win2_5.index t (1 : Fin 2)
    ∧ win2_3.index t (0 : Fin 2) = win2_5.index t (0 : Fin 2)
    ∧ win2_3.index t (1 : Fin 2) = win2_5.index t (1 : Fin 2)
    ∧ win2_5.index t (0 : Fin 2) ≤ 9
    ∧ win2_5.index t (1 : Fin 2) = 0 :=
  (by decide +kernel : ∀ t : Fin grid2.N, _)

/-- Every one of the 10 block rows of window 4 is some point's. -/
theorem onto2_4 : ∀ q : Fin 10, ∃ t : Fin cfg2.N, win2_4.index t = ![q.val, 0] :=
  (by decide +kernel : ∀ q : Fin 10, ∃ t : Fin grid2.N, win2_4.index t = ![q.val, 0])

/-- Every one of the 10 block rows of window 5 is some point's. -/
theorem onto2_5 : ∀ q : Fin 10, ∃ t : Fin cfg2.N, win2_5.index t = ![q.val, 0] :=
  (by decide +kernel : ∀ q : Fin 10, ∃ t : Fin grid2.N, win2_5.index t = ![q.val, 0])

/-- What point `t` writes back to window 4's array is block `t` of the pointwise sum of the arrays under windows 0
    and 1: the body stores the sum of the two staged blocks, and an element of a block sits in its array at block
    index × block size + its own coordinate, the same place for all three windows. -/
theorem flushed2_4_eq (c : Dev nD) (t : Fin cfg2.N) :
    (dat2 V c).flushed 4 t = ((cfg2.win 4).blk t).view.read (Elt F)
      (fun i => FloatOps.addf (V c main_v84 i) (V c main_v85 i) : S50000x128.Idx → Elt F .f32) := by
  show (cfg2.win 4).cut (grid2.coords t) ((dat2 V c).after 4 t) = _
  rw [after2_4]
  unfold out2_4
  rw [View.canon_unit_zero zero_offsets]
  simp only [View.ld_unit_zero (S := S5000x128) zero_offsets]
  rw [k2_pay2_eq]
  obtain ⟨e0, e1, e2, e3, e4, e5⟩ := index2_4 t
  funext j
  show FloatOps.addf (V c main_v84 (((cfg2.win 0).blk t).view.emb j)) (V c main_v85 (((cfg2.win 1).blk t).view.emb j)) = FloatOps.addf (V c main_v84 (((cfg2.win 4).blk t).view.emb j)) (V c main_v85 (((cfg2.win 4).blk t).view.emb j))
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb j = ((cfg2.win 4).blk t).view.emb j := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * (j 1).val = win2_4.index t (1 : Fin 2) * 128 + 1 * (j 1).val; omega
  rw [h0, h1]

/-- What point `t` writes back to window 5's array is block `t` of the pointwise product of the arrays under
    windows 2 and 3, for the same reasons. -/
theorem flushed2_5_eq (c : Dev nD) (t : Fin cfg2.N) :
    (dat2 V c).flushed 5 t = ((cfg2.win 5).blk t).view.read (Elt F)
      (fun i => FloatOps.mulf (V c main_v86 i) (V c main_v24 i) : S50000x128.Idx → Elt F .f32) := by
  show (cfg2.win 5).cut (grid2.coords t) ((dat2 V c).after 5 t) = _
  rw [after2_5]
  unfold out2_5
  rw [View.canon_unit_zero zero_offsets]
  simp only [View.ld_unit_zero (S := S5000x128) zero_offsets]
  rw [k2_pay1_eq]
  obtain ⟨e0, e1, e2, e3, e4, e5⟩ := index2_5 t
  funext j
  show FloatOps.mulf (V c main_v86 (((cfg2.win 2).blk t).view.emb j)) (V c main_v24 (((cfg2.win 3).blk t).view.emb j)) = FloatOps.mulf (V c main_v86 (((cfg2.win 5).blk t).view.emb j)) (V c main_v24 (((cfg2.win 5).blk t).view.emb j))
  have h2 : ((cfg2.win 2).blk t).view.emb j = ((cfg2.win 5).blk t).view.emb j := by
    funext a; apply Fin.ext
    match a with
    | ⟨0, _⟩ => show win2_2.index t (0 : Fin 2) * 5000 + 1 * (j 0).val = win2_5.index t (0 : Fin 2) * 5000 + 1 * (j 0).val; omega
    | ⟨1, _⟩ => show win2_2.index t (1 : Fin 2) * 128 + 1 * (j 1).val = win2_5.index t (1 : Fin 2) * 128 + 1 * (j 1).val; omega
  have h3 : ((cfg2.win 3).blk t).view.emb j = ((cfg2.win 5).blk t).view.emb j := by
    funext a; apply Fin.ext
    match a with
    | ⟨0, _⟩ => show win2_3.index t (0 : Fin 2) * 5000 + 1 * (j 0).val = win2_5.index t (0 : Fin 2) * 5000 + 1 * (j 0).val; omega
    | ⟨1, _⟩ => show win2_3.index t (1 : Fin 2) * 128 + 1 * (j 1).val = win2_5.index t (1 : Fin 2) * 128 + 1 * (j 1).val; omega
  rw [h2, h3]

/-- An index of window 4's array is in point `t`'s block iff each coordinate is in the block's range on its axis. -/
theorem mem_blk2_4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v87_0).slice (win2_4.rect t)).set ↔ _
  rw [View.set_slice_whole, Rect.mem_set_unit]
  exact Iff.rfl

/-- An index of window 5's array is in point `t`'s block iff each coordinate is in the block's range on its axis. -/
theorem mem_blk2_5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v87_1).slice (win2_5.rect t)).set ↔ _
  rw [View.set_slice_whole, Rect.mem_set_unit]
  exact Iff.rfl

/-- The 10 blocks of 5000 rows fill window 4's 50000 rows: row `r` is in the block of the point whose block row is
    `r / 5000`, and that point writes its block back. -/
theorem blocks_fill2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := onto2_4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- Likewise the 10 blocks fill window 5's array. -/
theorem blocks_fill2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := onto2_5 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After region 2, window 4's array is the pointwise sum of the arrays under windows 0 and 1 as the region found them. -/
theorem final2_4 (c : Dev nD) :
    (dat2 V c).arrAt 4 cfg2.N = (fun i => FloatOps.addf (V c main_v84 i) (V c main_v85 i) : S50000x128.Idx → Elt F .f32) :=
  (dat2 V c).arrAt_eq_of_cover 4 _ (fun t _ => flushed2_4_eq V c t) blocks_fill2_4

/-- After region 2, window 5's array is the pointwise product of the arrays under windows 2 and 3 as the region found them. -/
theorem final2_5 (c : Dev nD) :
    (dat2 V c).arrAt 5 cfg2.N = (fun i => FloatOps.mulf (V c main_v86 i) (V c main_v24 i) : S50000x128.Idx → Elt F .f32) :=
  (dat2 V c).arrAt_eq_of_cover 5 _ (fun t _ => flushed2_5_eq V c t) blocks_fill2_5

/-- Region 2 only reads its four input windows: their arrays end as the region found them. -/
theorem kept2 (c : Dev nD) (w : Fin 6) (hw : w.val < 4) : (dat2 V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  exact ((dat2 V c).arrAt_in w hin _).trans (A_eq2 V c w)

/-- In particular the array under window 3, which later regions read again, passes through region 2 unchanged. -/
theorem kept2_3 (c : Dev nD) : (dat2 V c).arrAt 3 cfg2.N = V c main_v24 := kept2 V c 3 (by decide)

/-! ## Region 3

The same grid and blocks; window 2 receives the sum of windows 0 and 1 times the constant whose 32-bit pattern is
`0x3E800000` (one quarter), element by element. Again the 10 blocks fill the array, so after the region it is one
pointwise function of the two input arrays as the region found them. -/

/-- The payload is the pointwise sum of its two loaded blocks times the broadcast constant: both shape casts are to
    the same shape. -/
theorem k3_pay1_eq (x0 x1 : Vec F S5000x128 .f32) :
    k3_pay1 x0 x1 = mulf (addf x0 x1) (broadcast S5000x128 (Scalar.ofBits .f32 0x3E800000#32)) := by
  unfold k3_pay1
  simp only [shapeCast_self]

/-- The block index maps, decided over the 10 grid points: the two windows the body reads move with its output
    window, which stays within block rows 0..9 of the only block column. -/
theorem index3_2 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 9
    ∧ win3_2.index t (1 : Fin 2) = 0 :=
  (by decide +kernel : ∀ t : Fin grid3.N, _)

/-- Every one of the 10 block rows of window 2 is some point's. -/
theorem onto3_2 : ∀ q : Fin 10, ∃ t : Fin cfg3.N, win3_2.index t = ![q.val, 0] :=
  (by decide +kernel : ∀ q : Fin 10, ∃ t : Fin grid3.N, win3_2.index t = ![q.val, 0])

/-- What point `t` writes back to window 2's array is block `t` of the pointwise "sum times one quarter" of the
    arrays under windows 0 and 1: the body stores that function of the two staged blocks, and an element of a block
    sits in its array at block index × block size + its own coordinate, the same place for all three windows. -/
theorem flushed3_2_eq (c : Dev nD) (t : Fin cfg3.N) :
    (dat3 V c).flushed 2 t = ((cfg3.win 2).blk t).view.read (Elt F)
      (fun i => FloatOps.mulf (FloatOps.addf (V c main_v90 i) (V c main_v91 i)) (FloatOps.ofBits .f32 0x3E800000#32) : S50000x128.Idx → Elt F .f32) := by
  show (cfg3.win 2).cut (grid3.coords t) ((dat3 V c).after 2 t) = _
  rw [after3_2]
  unfold out3_2
  rw [View.canon_unit_zero zero_offsets]
  simp only [View.ld_unit_zero (S := S5000x128) zero_offsets]
  rw [k3_pay1_eq]
  obtain ⟨e0, e1, e2, e3, e4, e5⟩ := index3_2 t
  funext j
  show FloatOps.mulf (FloatOps.addf (V c main_v90 (((cfg3.win 0).blk t).view.emb j)) (V c main_v91 (((cfg3.win 1).blk t).view.emb j))) (FloatOps.ofBits .f32 0x3E800000#32) = FloatOps.mulf (FloatOps.addf (V c main_v90 (((cfg3.win 2).blk t).view.emb j)) (V c main_v91 (((cfg3.win 2).blk t).view.emb j))) (FloatOps.ofBits .f32 0x3E800000#32)
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  rw [h0, h1]

/-- An index of window 2's array is in point `t`'s block iff each coordinate is in the block's range on its axis. -/
theorem mem_blk3_2 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v92).slice (win3_2.rect t)).set ↔ _
  rw [View.set_slice_whole, Rect.mem_set_unit]
  exact Iff.rfl

/-- The 10 blocks of 5000 rows fill window 2's 50000 rows: row `r` is in the block of the point whose block row is
    `r / 5000`, and that point writes its block back. -/
theorem blocks_fill3_2 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := onto3_2 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After region 3, window 2's array is, element by element, the sum of the arrays under windows 0 and 1 as the
    region found them, times one quarter. -/
theorem final3_2 (c : Dev nD) :
    (dat3 V c).arrAt 2 cfg3.N = (fun i => FloatOps.mulf (FloatOps.addf (V c main_v90 i) (V c main_v91 i)) (FloatOps.ofBits .f32 0x3E800000#32) : S50000x128.Idx → Elt F .f32) :=
  (dat3 V c).arrAt_eq_of_cover 2 _ (fun t _ => flushed3_2_eq V c t) blocks_fill3_2

/-- Region 3 only reads its two input windows: their arrays end as the region found them. -/
theorem kept3 (c : Dev nD) (w : Fin 3) (hw : w.val < 2) : (dat3 V c).arrAt w cfg3.N = V c (Pipeline.arrRef spec3 w) := by
  have hin : (cfg3.win w).isOut = false := by
    match w, hw with
    | ⟨0, _⟩, _ => rfl
    | ⟨1, _⟩, _ => rfl
    | ⟨n + 2, _⟩, h => exact absurd h (by simp)
  exact ((dat3 V c).arrAt_in w hin _).trans (A_eq3 V c w)

end Cert.KernelIdeal.RegionArrays

end
-- ==== Proof.KernelValue.lean ====
/-
  The idealized kernel program's result as a function of its arguments.

  The buffer contents at each cut of the program are followed from the launch memory: a host stretch is read by its
  operations, a kernel region leaves in its output arrays the pointwise sum or product of its input arrays and every
  other buffer as it was. After the k-th layer region the two output arrays hold, re-laid wide, the running sum of the
  embeddings and the k-th layer's embedding; the last region leaves (running sum + third embedding) / 4 written as a
  product with one quarter; the stretch after it computes the loss of that table.
-/
import proofs.«115500_j63857573757118_2_alg».proof.Proof.Gen.KernelIdeal.Frame
import proofs.«115500_j63857573757118_2_alg».proof.Proof.Stretches
import proofs.«115500_j63857573757118_2_alg».proof.Proof.RegionArrays

set_option maxRecDepth 16384

noncomputable section

namespace Cert.KernelIdeal.Walk

open Cert.KernelIdeal Cert.KernelIdeal.Gen Cert.KernelIdeal.Layers Cert.KernelIdeal.Loss Cert.KernelIdeal.Stretches
open Cert.KernelIdeal.RegionArrays
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## Entering the first region -/

theorem in1_scale : W1 m ρ c (Proc.devRef .tc main_v24) = wide (scaleTable (m ((c : Thread nD τ).loc main_arg5)) (m ((c : Thread nD τ).loc main_arg6))) := first_scale (W0 m ρ c)
theorem in1_acc : W1 m ρ c (Proc.devRef .tc main_v46) = wide (zeros (F := F)) := first_acc (W0 m ρ c)
theorem in1_emb : W1 m ρ c (Proc.devRef .tc main_v47) = wide (m ((c : Thread nD τ).loc main_arg0)) := first_emb (W0 m ρ c)
theorem in1_agg : W1 m ρ c (Proc.devRef .tc main_v48) = wide (aggregate (m ((c : Thread nD τ).loc main_arg0)) (edgeScale (m ((c : Thread nD τ).loc main_arg5)) (m ((c : Thread nD τ).loc main_arg6))) (m ((c : Thread nD τ).loc main_arg5)) (m ((c : Thread nD τ).loc main_arg6))) := first_agg (W0 m ρ c)
theorem in1_edge : W1 m ρ c (Proc.devRef .tc main_v32) = (edgeScale (m ((c : Thread nD τ).loc main_arg5)) (m ((c : Thread nD τ).loc main_arg6))) := first_edgeScale (W0 m ρ c)
theorem in1_arg1 : W1 m ρ c (Proc.devRef .tc main_arg1) = (m ((c : Thread nD τ).loc main_arg1)) := first_arg1 (W0 m ρ c)
theorem in1_arg2 : W1 m ρ c (Proc.devRef .tc main_arg2) = (m ((c : Thread nD τ).loc main_arg2)) := first_arg2 (W0 m ρ c)
theorem in1_arg3 : W1 m ρ c (Proc.devRef .tc main_arg3) = (m ((c : Thread nD τ).loc main_arg3)) := first_arg3 (W0 m ρ c)
theorem in1_arg4 : W1 m ρ c (Proc.devRef .tc main_arg4) = (m ((c : Thread nD τ).loc main_arg4)) := first_arg4 (W0 m ρ c)
theorem in1_arg5 : W1 m ρ c (Proc.devRef .tc main_arg5) = (m ((c : Thread nD τ).loc main_arg5)) := first_arg5 (W0 m ρ c)
theorem in1_arg6 : W1 m ρ c (Proc.devRef .tc main_arg6) = (m ((c : Thread nD τ).loc main_arg6)) := first_arg6 (W0 m ρ c)

/-! ## Leaving layer region 0 -/

theorem out1_acc : W2 m ρ c (Proc.devRef .tc main_v49_0) = wide (acc1 (m ((c : Thread nD τ).loc main_arg0))) := by
  refine (W2_arr m ρ c 4).trans ((final0_4 (V1 m ρ) c).trans ?_)
  have h0 : V1 m ρ c main_v46 = wide (zeros (F := F)) := in1_acc m ρ c
  have h1 : V1 m ρ c main_v47 = wide (m ((c : Thread nD τ).loc main_arg0)) := in1_emb m ρ c
  rw [h0, h1]; rfl
theorem out1_emb : W2 m ρ c (Proc.devRef .tc main_v49_1) = wide (emb1 (m ((c : Thread nD τ).loc main_arg0)) (m ((c : Thread nD τ).loc main_arg5)) (m ((c : Thread nD τ).loc main_arg6))) := by
  refine (W2_arr m ρ c 5).trans ((final0_5 (V1 m ρ) c).trans ?_)
  have h2 : V1 m ρ c main_v48 = wide (aggregate (m ((c : Thread nD τ).loc main_arg0)) (edgeScale (m ((c : Thread nD τ).loc main_arg5)) (m ((c : Thread nD τ).loc main_arg6))) (m ((c : Thread nD τ).loc main_arg5)) (m ((c : Thread nD τ).loc main_arg6))) := in1_agg m ρ c
  have h3 : V1 m ρ c main_v24 = wide (scaleTable (m ((c : Thread nD τ).loc main_arg5)) (m ((c : Thread nD τ).loc main_arg6))) := in1_scale m ρ c
  rw [h2, h3]; rfl
theorem out1_scale : W2 m ρ c (Proc.devRef .tc main_v24) = wide (scaleTable (m ((c : Thread nD τ).loc main_arg5)) (m ((c : Thread nD τ).loc main_arg6))) :=
  (W2_arr m ρ c 3).trans ((kept0 (V1 m ρ) c 3 (by decide)).trans (in1_scale m ρ c))
theorem out1_edge : W2 m ρ c (Proc.devRef .tc main_v32) = (edgeScale (m ((c : Thread nD τ).loc main_arg5)) (m ((c : Thread nD τ).loc main_arg6))) :=
  (W2_of_ne m ρ c main_v32 (by decide)).trans (in1_edge m ρ c)
theorem out1_arg1 : W2 m ρ c (Proc.devRef .tc main_arg1) = (m ((c : Thread nD τ).loc main_arg1)) :=
  (W2_of_ne m ρ c main_arg1 (by decide)).trans (in1_arg1 m ρ c)
theorem out1_arg2 : W2 m ρ c (Proc.devRef .tc main_arg2) = (m ((c : Thread nD τ).loc main_arg2)) :=
  (W2_of_ne m ρ c main_arg2 (by decide)).trans (in1_arg2 m ρ c)
theorem out1_arg3 : W2 m ρ c (Proc.devRef .tc main_arg3) = (m ((c : Thread nD τ).loc main_arg3)) :=
  (W2_of_ne m ρ c main_arg3 (by decide)).trans (in1_arg3 m ρ c)
theorem out1_arg4 : W2 m ρ c (Proc.devRef .tc main_arg4) = (m ((c : Thread nD τ).loc main_arg4)) :=
  (W2_of_ne m ρ c main_arg4 (by decide)).trans (in1_arg4 m ρ c)
theorem out1_arg5 : W2 m ρ c (Proc.devRef .tc main_arg5) = (m ((c : Thread nD τ).loc main_arg5)) :=
  (W2_of_ne m ρ c main_arg5 (by decide)).trans (in1_arg5 m ρ c)
theorem out1_arg6 : W2 m ρ c (Proc.devRef .tc main_arg6) = (m ((c : Thread nD τ).loc main_arg6)) :=
  (W2_of_ne m ρ c main_arg6 (by decide)).trans (in1_arg6 m ρ c)

/-! ## Entering layer region 1 -/

theorem in2_acc : W3 m ρ c (Proc.devRef .tc main_v65) = wide (acc1 (m ((c : Thread nD τ).loc main_arg0))) :=
  (second_acc (W2 m ρ c)).trans (by rw [out1_acc m ρ c, narrow_wide])
theorem in2_emb : W3 m ρ c (Proc.devRef .tc main_v66) = wide (emb1 (m ((c : Thread nD τ).loc main_arg0)) (m ((c : Thread nD τ).loc main_arg5)) (m ((c : Thread nD τ).loc main_arg6))) :=
  (second_emb (W2 m ρ c)).trans (by rw [out1_emb m ρ c, narrow_wide])
theorem in2_agg : W3 m ρ c (Proc.devRef .tc main_v67) = wide (aggregate (emb1 (m ((c : Thread nD τ).loc main_arg0)) (m ((c : Thread nD τ).loc main_arg5)) (m ((c : Thread nD τ).loc main_arg6))) (edgeScale (m ((c : Thread nD τ).loc main_arg5)) (m ((c : Thread nD τ).loc main_arg6))) (m ((c : Thread nD τ).loc main_arg5)) (m ((c : Thread nD τ).loc main_arg6))) :=
  (second_agg (W2 m ρ c)).trans (by rw [out1_emb m ρ c, narrow_wide, out1_edge m ρ c, out1_arg5 m ρ c, out1_arg6 m ρ c])
theorem in2_scale : W3 m ρ c (Proc.devRef .tc main_v24) = wide (scaleTable (m ((c : Thread nD τ).loc main_arg5)) (m ((c : Thread nD τ).loc main_arg6))) :=
  (second_keep_v24 (W2 m ρ c)).trans (out1_scale m ρ c)
theorem in2_edge : W3 m ρ c (Proc.devRef .tc main_v32) = (edgeScale (m ((c : Thread nD τ).loc main_arg5)) (m ((c : Thread nD τ).loc main_arg6))) :=
  (second_keep_v32 (W2 m ρ c)).trans (out1_edge m ρ c)
theorem in2_arg1 : W3 m ρ c (Proc.devRef .tc main_arg1) = (m ((c : Thread nD τ).loc main_arg1)) :=
  (second_keep_arg1 (W2 m ρ c)).trans (out1_arg1 m ρ c)
theorem in2_arg2 : W3 m ρ c (Proc.devRef .tc main_arg2) = (m ((c : Thread nD τ).loc main_arg2)) :=
  (second_keep_arg2 (W2 m ρ c)).trans (out1_arg2 m ρ c)
theorem in2_arg3 : W3 m ρ c (Proc.devRef .tc main_arg3) = (m ((c : Thread nD τ).loc main_arg3)) :=
  (second_keep_arg3 (W2 m ρ c)).trans (out1_arg3 m ρ c)
theorem in2_arg4 : W3 m ρ c (Proc.devRef .tc main_arg4) = (m ((c : Thread nD τ).loc main_arg4)) :=
  (second_keep_arg4 (W2 m ρ c)).trans (out1_arg4 m ρ c)
theorem in2_arg5 : W3 m ρ c (Proc.devRef .tc main_arg5) = (m ((c : Thread nD τ).loc main_arg5)) :=
  (second_keep_arg5 (W2 m ρ c)).trans (out1_arg5 m ρ c)
theorem in2_arg6 : W3 m ρ c (Proc.devRef .tc main_arg6) = (m ((c : Thread nD τ).loc main_arg6)) :=
  (second_keep_arg6 (W2 m ρ c)).trans (out1_arg6 m ρ c)

/-! ## Leaving layer region 1 -/

theorem out2_acc : W4 m ρ c (Proc.devRef .tc main_v68_0) = wide (acc2 (m ((c : Thread nD τ).loc main_arg0)) (m ((c : Thread nD τ).loc main_arg5)) (m ((c : Thread nD τ).loc main_arg6))) := by
  refine (W4_arr m ρ c 4).trans ((final1_4 (V3 m ρ) c).trans ?_)
  have h0 : V3 m ρ c main_v65 = wide (acc1 (m ((c : Thread nD τ).loc main_arg0))) := in2_acc m ρ c
  have h1 : V3 m ρ c main_v66 = wide (emb1 (m ((c : Thread nD τ).loc main_arg0)) (m ((c : Thread nD τ).loc main_arg5)) (m ((c : Thread nD τ).loc main_arg6))) := in2_emb m ρ c
  rw [h0, h1]; rfl
theorem out2_emb : W4 m ρ c (Proc.devRef .tc main_v68_1) = wide (emb2 (m ((c : Thread nD τ).loc main_arg0)) (m ((c : Thread nD τ).loc main_arg5)) (m ((c : Thread nD τ).loc main_arg6))) := by
  refine (W4_arr m ρ c 5).trans ((final1_5 (V3 m ρ) c).trans ?_)
  have h2 : V3 m ρ c main_v67 = wide (aggregate (emb1 (m ((c : Thread nD τ).loc main_arg0)) (m ((c : Thread nD τ).loc main_arg5)) (m ((c : Thread nD τ).loc main_arg6))) (edgeScale (m ((c : Thread nD τ).loc main_arg5)) (m ((c : Thread nD τ).loc main_arg6))) (m ((c : Thread nD τ).loc main_arg5)) (m ((c : Thread nD τ).loc main_arg6))) := in2_agg m ρ c
  have h3 : V3 m ρ c main_v24 = wide (scaleTable (m ((c : Thread nD τ).loc main_arg5)) (m ((c : Thread nD τ).loc main_arg6))) := in2_scale m ρ c
  rw [h2, h3]; rfl
theorem out2_scale : W4 m ρ c (Proc.devRef .tc main_v24) = wide (scaleTable (m ((c : Thread nD τ).loc main_arg5)) (m ((c : Thread nD τ).loc main_arg6))) :=
  (W4_arr m ρ c 3).trans ((kept1 (V3 m ρ) c 3 (by decide)).trans (in2_scale m ρ c))
theorem out2_edge : W4 m ρ c (Proc.devRef .tc main_v32) = (edgeScale (m ((c : Thread nD τ).loc main_arg5)) (m ((c : Thread nD τ).loc main_arg6))) :=
  (W4_of_ne m ρ c main_v32 (by decide)).trans (in2_edge m ρ c)
theorem out2_arg1 : W4 m ρ c (Proc.devRef .tc main_arg1) = (m ((c : Thread nD τ).loc main_arg1)) :=
  (W4_of_ne m ρ c main_arg1 (by decide)).trans (in2_arg1 m ρ c)
theorem out2_arg2 : W4 m ρ c (Proc.devRef .tc main_arg2) = (m ((c : Thread nD τ).loc main_arg2)) :=
  (W4_of_ne m ρ c main_arg2 (by decide)).trans (in2_arg2 m ρ c)
theorem out2_arg3 : W4 m ρ c (Proc.devRef .tc main_arg3) = (m ((c : Thread nD τ).loc main_arg3)) :=
  (W4_of_ne m ρ c main_arg3 (by decide)).trans (in2_arg3 m ρ c)
theorem out2_arg4 : W4 m ρ c (Proc.devRef .tc main_arg4) = (m ((c : Thread nD τ).loc main_arg4)) :=
  (W4_of_ne m ρ c main_arg4 (by decide)).trans (in2_arg4 m ρ c)
theorem out2_arg5 : W4 m ρ c (Proc.devRef .tc main_arg5) = (m ((c : Thread nD τ).loc main_arg5)) :=
  (W4_of_ne m ρ c main_arg5 (by decide)).trans (in2_arg5 m ρ c)
theorem out2_arg6 : W4 m ρ c (Proc.devRef .tc main_arg6) = (m ((c : Thread nD τ).loc main_arg6)) :=
  (W4_of_ne m ρ c main_arg6 (by decide)).trans (in2_arg6 m ρ c)

/-! ## Entering layer region 2 -/

theorem in3_acc : W5 m ρ c (Proc.devRef .tc main_v84) = wide (acc2 (m ((c : Thread nD τ).loc main_arg0)) (m ((c : Thread nD τ).loc main_arg5)) (m ((c : Thread nD τ).loc main_arg6))) :=
  (third_acc (W4 m ρ c)).trans (by rw [out2_acc m ρ c, narrow_wide])
theorem in3_emb : W5 m ρ c (Proc.devRef .tc main_v85) = wide (emb2 (m ((c : Thread nD τ).loc main_arg0)) (m ((c : Thread nD τ).loc main_arg5)) (m ((c : Thread nD τ).loc main_arg6))) :=
  (third_emb (W4 m ρ c)).trans (by rw [out2_emb m ρ c, narrow_wide])
theorem in3_agg : W5 m ρ c (Proc.devRef .tc main_v86) = wide (aggregate (emb2 (m ((c : Thread nD τ).loc main_arg0)) (m ((c : Thread nD τ).loc main_arg5)) (m ((c : Thread nD τ).loc main_arg6))) (edgeScale (m ((c : Thread nD τ).loc main_arg5)) (m ((c : Thread nD τ).loc main_arg6))) (m ((c : Thread nD τ).loc main_arg5)) (m ((c : Thread nD τ).loc main_arg6))) :=
  (third_agg (W4 m ρ c)).trans (by rw [out2_emb m ρ c, narrow_wide, out2_edge m ρ c, out2_arg5 m ρ c, out2_arg6 m ρ c])
theorem in3_scale : W5 m ρ c (Proc.devRef .tc main_v24) = wide (scaleTable (m ((c : Thread nD τ).loc main_arg5)) (m ((c : Thread nD τ).loc main_arg6))) :=
  (third_keep_v24 (W4 m ρ c)).trans (out2_scale m ρ c)
theorem in3_edge : W5 m ρ c (Proc.devRef .tc main_v32) = (edgeScale (m ((c : Thread nD τ).loc main_arg5)) (m ((c : Thread nD τ).loc main_arg6))) :=
  (third_keep_v32 (W4 m ρ c)).trans (out2_edge m ρ c)
theorem in3_arg1 : W5 m ρ c (Proc.devRef .tc main_arg1) = (m ((c : Thread nD τ).loc main_arg1)) :=
  (third_keep_arg1 (W4 m ρ c)).trans (out2_arg1 m ρ c)
theorem in3_arg2 : W5 m ρ c (Proc.devRef .tc main_arg2) = (m ((c : Thread nD τ).loc main_arg2)) :=
  (third_keep_arg2 (W4 m ρ c)).trans (out2_arg2 m ρ c)
theorem in3_arg3 : W5 m ρ c (Proc.devRef .tc main_arg3) = (m ((c : Thread nD τ).loc main_arg3)) :=
  (third_keep_arg3 (W4 m ρ c)).trans (out2_arg3 m ρ c)
theorem in3_arg4 : W5 m ρ c (Proc.devRef .tc main_arg4) = (m ((c : Thread nD τ).loc main_arg4)) :=
  (third_keep_arg4 (W4 m ρ c)).trans (out2_arg4 m ρ c)
theorem in3_arg5 : W5 m ρ c (Proc.devRef .tc main_arg5) = (m ((c : Thread nD τ).loc main_arg5)) :=
  (third_keep_arg5 (W4 m ρ c)).trans (out2_arg5 m ρ c)
theorem in3_arg6 : W5 m ρ c (Proc.devRef .tc main_arg6) = (m ((c : Thread nD τ).loc main_arg6)) :=
  (third_keep_arg6 (W4 m ρ c)).trans (out2_arg6 m ρ c)

/-! ## Leaving layer region 2 -/

theorem out3_acc : W6 m ρ c (Proc.devRef .tc main_v87_0) = wide (acc3 (m ((c : Thread nD τ).loc main_arg0)) (m ((c : Thread nD τ).loc main_arg5)) (m ((c : Thread nD τ).loc main_arg6))) := by
  refine (W6_arr m ρ c 4).trans ((final2_4 (V5 m ρ) c).trans ?_)
  have h0 : V5 m ρ c main_v84 = wide (acc2 (m ((c : Thread nD τ).loc main_arg0)) (m ((c : Thread nD τ).loc main_arg5)) (m ((c : Thread nD τ).loc main_arg6))) := in3_acc m ρ c
  have h1 : V5 m ρ c main_v85 = wide (emb2 (m ((c : Thread nD τ).loc main_arg0)) (m ((c : Thread nD τ).loc main_arg5)) (m ((c : Thread nD τ).loc main_arg6))) := in3_emb m ρ c
  rw [h0, h1]; rfl
theorem out3_emb : W6 m ρ c (Proc.devRef .tc main_v87_1) = wide (emb3 (m ((c : Thread nD τ).loc main_arg0)) (m ((c : Thread nD τ).loc main_arg5)) (m ((c : Thread nD τ).loc main_arg6))) := by
  refine (W6_arr m ρ c 5).trans ((final2_5 (V5 m ρ) c).trans ?_)
  have h2 : V5 m ρ c main_v86 = wide (aggregate (emb2 (m ((c : Thread nD τ).loc main_arg0)) (m ((c : Thread nD τ).loc main_arg5)) (m ((c : Thread nD τ).loc main_arg6))) (edgeScale (m ((c : Thread nD τ).loc main_arg5)) (m ((c : Thread nD τ).loc main_arg6))) (m ((c : Thread nD τ).loc main_arg5)) (m ((c : Thread nD τ).loc main_arg6))) := in3_agg m ρ c
  have h3 : V5 m ρ c main_v24 = wide (scaleTable (m ((c : Thread nD τ).loc main_arg5)) (m ((c : Thread nD τ).loc main_arg6))) := in3_scale m ρ c
  rw [h2, h3]; rfl
theorem out3_scale : W6 m ρ c (Proc.devRef .tc main_v24) = wide (scaleTable (m ((c : Thread nD τ).loc main_arg5)) (m ((c : Thread nD τ).loc main_arg6))) :=
  (W6_arr m ρ c 3).trans ((kept2 (V5 m ρ) c 3 (by decide)).trans (in3_scale m ρ c))
theorem out3_edge : W6 m ρ c (Proc.devRef .tc main_v32) = (edgeScale (m ((c : Thread nD τ).loc main_arg5)) (m ((c : Thread nD τ).loc main_arg6))) :=
  (W6_of_ne m ρ c main_v32 (by decide)).trans (in3_edge m ρ c)
theorem out3_arg1 : W6 m ρ c (Proc.devRef .tc main_arg1) = (m ((c : Thread nD τ).loc main_arg1)) :=
  (W6_of_ne m ρ c main_arg1 (by decide)).trans (in3_arg1 m ρ c)
theorem out3_arg2 : W6 m ρ c (Proc.devRef .tc main_arg2) = (m ((c : Thread nD τ).loc main_arg2)) :=
  (W6_of_ne m ρ c main_arg2 (by decide)).trans (in3_arg2 m ρ c)
theorem out3_arg3 : W6 m ρ c (Proc.devRef .tc main_arg3) = (m ((c : Thread nD τ).loc main_arg3)) :=
  (W6_of_ne m ρ c main_arg3 (by decide)).trans (in3_arg3 m ρ c)
theorem out3_arg4 : W6 m ρ c (Proc.devRef .tc main_arg4) = (m ((c : Thread nD τ).loc main_arg4)) :=
  (W6_of_ne m ρ c main_arg4 (by decide)).trans (in3_arg4 m ρ c)
theorem out3_arg5 : W6 m ρ c (Proc.devRef .tc main_arg5) = (m ((c : Thread nD τ).loc main_arg5)) :=
  (W6_of_ne m ρ c main_arg5 (by decide)).trans (in3_arg5 m ρ c)
theorem out3_arg6 : W6 m ρ c (Proc.devRef .tc main_arg6) = (m ((c : Thread nD τ).loc main_arg6)) :=
  (W6_of_ne m ρ c main_arg6 (by decide)).trans (in3_arg6 m ρ c)

/-! ## Entering the last region -/

theorem in4_acc : W7 m ρ c (Proc.devRef .tc main_v90) = wide (acc3 (m ((c : Thread nD τ).loc main_arg0)) (m ((c : Thread nD τ).loc main_arg5)) (m ((c : Thread nD τ).loc main_arg6))) :=
  (last_acc (W6 m ρ c)).trans (by rw [out3_acc m ρ c, narrow_wide])
theorem in4_emb : W7 m ρ c (Proc.devRef .tc main_v91) = wide (emb3 (m ((c : Thread nD τ).loc main_arg0)) (m ((c : Thread nD τ).loc main_arg5)) (m ((c : Thread nD τ).loc main_arg6))) :=
  (last_emb (W6 m ρ c)).trans (by rw [out3_emb m ρ c, narrow_wide])
theorem in4_arg1 : W7 m ρ c (Proc.devRef .tc main_arg1) = (m ((c : Thread nD τ).loc main_arg1)) :=
  (last_keep_arg1 (W6 m ρ c)).trans (out3_arg1 m ρ c)
theorem in4_arg2 : W7 m ρ c (Proc.devRef .tc main_arg2) = (m ((c : Thread nD τ).loc main_arg2)) :=
  (last_keep_arg2 (W6 m ρ c)).trans (out3_arg2 m ρ c)
theorem in4_arg3 : W7 m ρ c (Proc.devRef .tc main_arg3) = (m ((c : Thread nD τ).loc main_arg3)) :=
  (last_keep_arg3 (W6 m ρ c)).trans (out3_arg3 m ρ c)
theorem in4_arg4 : W7 m ρ c (Proc.devRef .tc main_arg4) = (m ((c : Thread nD τ).loc main_arg4)) :=
  (last_keep_arg4 (W6 m ρ c)).trans (out3_arg4 m ρ c)

/-! ## Leaving the last region, and the result -/

theorem out4_item : W8 m ρ c (Proc.devRef .tc main_v92)
    = fun i => FloatOps.mulf (FloatOps.addf (wide (acc3 (m ((c : Thread nD τ).loc main_arg0)) (m ((c : Thread nD τ).loc main_arg5)) (m ((c : Thread nD τ).loc main_arg6))) i) (wide (emb3 (m ((c : Thread nD τ).loc main_arg0)) (m ((c : Thread nD τ).loc main_arg5)) (m ((c : Thread nD τ).loc main_arg6))) i)) (FloatOps.ofBits .f32 0x3E800000#32) := by
  refine (W8_arr m ρ c 2).trans ((final3_2 (V7 m ρ) c).trans ?_)
  have h0 : V7 m ρ c main_v90 = wide (acc3 (m ((c : Thread nD τ).loc main_arg0)) (m ((c : Thread nD τ).loc main_arg5)) (m ((c : Thread nD τ).loc main_arg6))) := in4_acc m ρ c
  have h1 : V7 m ρ c main_v91 = wide (emb3 (m ((c : Thread nD τ).loc main_arg0)) (m ((c : Thread nD τ).loc main_arg5)) (m ((c : Thread nD τ).loc main_arg6))) := in4_emb m ρ c
  rw [h0, h1]
theorem out4_arg1 : W8 m ρ c (Proc.devRef .tc main_arg1) = (m ((c : Thread nD τ).loc main_arg1)) :=
  (W8_of_ne m ρ c main_arg1 (by decide)).trans (in4_arg1 m ρ c)
theorem out4_arg2 : W8 m ρ c (Proc.devRef .tc main_arg2) = (m ((c : Thread nD τ).loc main_arg2)) :=
  (W8_of_ne m ρ c main_arg2 (by decide)).trans (in4_arg2 m ρ c)
theorem out4_arg3 : W8 m ρ c (Proc.devRef .tc main_arg3) = (m ((c : Thread nD τ).loc main_arg3)) :=
  (W8_of_ne m ρ c main_arg3 (by decide)).trans (in4_arg3 m ρ c)
theorem out4_arg4 : W8 m ρ c (Proc.devRef .tc main_arg4) = (m ((c : Thread nD τ).loc main_arg4)) :=
  (W8_of_ne m ρ c main_arg4 (by decide)).trans (in4_arg4 m ρ c)

/-- The program's result buffer at the end: the loss of the item table (running sum + third embedding) · ¼. -/
theorem result : W10 m ρ c (Proc.devRef .tc main_v120)
    = lossOf (itemQuarter (m ((c : Thread nD τ).loc main_arg0)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg4)) := by
  refine (loss_result (W8 m ρ c)).trans ?_
  rw [out4_item m ρ c, out4_arg1 m ρ c, out4_arg2 m ρ c, out4_arg3 m ρ c, out4_arg4 m ρ c, narrow_quarter]
  rfl

end Cert.KernelIdeal.Walk

end
-- ==== Proof.GatherScale.lean ====
import proofs.«115500_j63857573757118_2_alg».proof.KernelIdeal
import Idealize.ShloMosaic.Lib.ValueIdx
import Idealize.ShloMosaic.Lib.Pipeline.Value
import Idealize.ShloMosaic.PureOps.Ideal
import Idealize.ShloMosaic.PureOps.Ideal.Laws

/-!
# Scaling commutes with a row gather

A graph layer gathers rows of a table `e : [100000, 64]` at start indices `idx : [1000000, 1]` and scales them by a
per-row factor `n : [100000]`. Scaling after the gather by the gathered factor, `e[idx] * n[idx][:, None]`, and scaling
before it, `(e * n[:, None])[idx]`, agree element by element: at result position `(k, c)` both gathers read row
`min (idx[k, 0] read signed, negative as 0) 99999`, so both sides are `e (row, c) * n row`.

Then, at the extended reals, multiplying by the literal `0.25` is dividing by the literal `4`.
-/

noncomputable section

namespace Cert.KernelIdeal.GatherScale

open Idealize.ShloMosaic Idealize.ShloMosaic.ValueIdx Cert.KernelIdeal

section Gather
variable [Facts₀]
open Facts₀

/-- The clamped row number that start index `[k, 0]` names: the 32-bit word read signed, a negative one as `0`,
    cut off at the last row `99999`. -/
def row (idx : IVec S1000000x1 32) (k : Fin 1000000) : Nat :=
  min (idx (ix2 k (0 : Fin 1))).toInt.toNat 99999

/-- The rank-2 gather reads, at result position `(k, c)`, operand row `row idx k` … -/
theorem operandIdx2_row (idx : IVec S1000000x1 32) (k : Fin 1000000) (c : Fin 64) :
    ((gather_S100000x64_S1000000x1_S1000000x64_1_0_n_n_0_1_164.operandIdx (ix2 k c) idx) 0).val = row idx k := by
  show gather_S100000x64_S1000000x1_S1000000x64_1_0_n_n_0_1_164.start (ix2 k c) idx 0
      + gather_S100000x64_S1000000x1_S1000000x64_1_0_n_n_0_1_164.batchCoord (ix2 k c) 0
      + gather_S100000x64_S1000000x1_S1000000x64_1_0_n_n_0_1_164.offCoord (ix2 k c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x64_S1000000x1_S1000000x64_1_0_n_n_0_1_164.startIndexMap
    from List.mem_singleton.mpr rfl)]
  have hsi : gather_S100000x64_S1000000x1_S1000000x64_1_0_n_n_0_1_164.siIdx (ix2 k c)
      ⟨List.idxOf (0 : Fin 2) gather_S100000x64_S1000000x1_S1000000x64_1_0_n_n_0_1_164.startIndexMap,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- … and operand column `c`. -/
theorem operandIdx2_col (idx : IVec S1000000x1 32) (k : Fin 1000000) (c : Fin 64) :
    ((gather_S100000x64_S1000000x1_S1000000x64_1_0_n_n_0_1_164.operandIdx (ix2 k c) idx) 1).val = c.val := by
  show gather_S100000x64_S1000000x1_S1000000x64_1_0_n_n_0_1_164.start (ix2 k c) idx 1
      + gather_S100000x64_S1000000x1_S1000000x64_1_0_n_n_0_1_164.batchCoord (ix2 k c) 1
      + gather_S100000x64_S1000000x1_S1000000x64_1_0_n_n_0_1_164.offCoord (ix2 k c) 1 = _
  rw [GatherDims.batchCoord_eq_zero _ _ _ List.not_mem_nil]
  unfold GatherDims.start
  rw [dif_neg (show (1 : Fin 2) ∉ gather_S100000x64_S1000000x1_S1000000x64_1_0_n_n_0_1_164.startIndexMap
    from fun h => absurd (List.mem_singleton.mp h) (by decide))]
  simp only [Nat.add_zero, Nat.zero_add]
  rfl

/-- The rank-1 gather reads, at result position `k`, operand position `row idx k`. -/
theorem operandIdx1_row (idx : IVec S1000000x1 32) (k : Fin 1000000) :
    ((gather_S100000_S1000000x1_S1000000_n_0_n_n_0_1_1.operandIdx (ix1 k) idx) 0).val = row idx k := by
  show gather_S100000_S1000000x1_S1000000_n_0_n_n_0_1_1.start (ix1 k) idx 0
      + gather_S100000_S1000000x1_S1000000_n_0_n_n_0_1_1.batchCoord (ix1 k) 0
      + gather_S100000_S1000000x1_S1000000_n_0_n_n_0_1_1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S1000000x1_S1000000_n_0_n_n_0_1_1.startIndexMap
    from List.mem_singleton.mpr rfl)]
  have hsi : gather_S100000_S1000000x1_S1000000_n_0_n_n_0_1_1.siIdx (ix1 k)
      ⟨List.idxOf (0 : Fin 1) gather_S100000_S1000000x1_S1000000_n_0_n_n_0_1_1.startIndexMap,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The row number is a row of the table. -/
theorem row_lt (idx : IVec S1000000x1 32) (k : Fin 1000000) : row idx k < 100000 := by
  unfold row; omega

variable {F : FTy → Type} [FloatOps F]

/-- SCALING COMMUTES WITH THE GATHER: the gathered rows times the gathered factors are the gathered rows of the scaled
    table. Both sides at `(k, c)` are `e (row idx k, c) * n (row idx k)`. -/
theorem gather_scale (e : (⟨S100000x64, .f32⟩ : BufTy).Contents (Elt F)) (n : (⟨S100000, .f32⟩ : BufTy).Contents (Elt F))
    (idx : (⟨S1000000x1, .i32⟩ : BufTy).Contents (Elt F)) :
    mulf (Host.gather gather_S100000x64_S1000000x1_S1000000x64_1_0_n_n_0_1_164 e idx)
         (broadcastInDim S1000000x64 ![0, 1] bcast_S1000000x1_S1000000x64_0_1
            (broadcastInDim S1000000x1 ![0] bcast_S1000000_S1000000x1_0
               (Host.gather gather_S100000_S1000000x1_S1000000_n_0_n_n_0_1_1 n idx)))
    = Host.gather gather_S100000x64_S1000000x1_S1000000x64_1_0_n_n_0_1_164
        (mulf e (broadcastInDim S100000x64 ![0, 1] bcast_S100000x1_S100000x64_0_1
          (broadcastInDim S100000x1 ![0] bcast_S100000_S100000x1_0 n))) idx := by
  funext j
  obtain ⟨k, c, rfl⟩ : ∃ (k : Fin 1000000) (c : Fin 64), j = ix2 k c := ⟨j 0, j 1, eq_ix2 j⟩
  -- the row both gathers read, as an index of the table's first axis
  let r : Fin 100000 := ⟨row idx k, row_lt idx k⟩
  -- the left factor: the gathered factor, broadcast along the columns, is `n` at that row
  have hL : broadcastInDim S1000000x64 ![0, 1] bcast_S1000000x1_S1000000x64_0_1
      (broadcastInDim S1000000x1 ![0] bcast_S1000000_S1000000x1_0
        (Host.gather gather_S100000_S1000000x1_S1000000_n_0_n_n_0_1_1 n idx)) (ix2 k c) = n (ix1 r) := by
    refine (broadcastInDim_apply _ bcast_S1000000x1_S1000000x64_0_1 _ (ix2 k c) (ix2 k (0 : Fin 1))
      (fun a => match a with | ⟨0, _⟩ => rfl | ⟨1, _⟩ => rfl)).trans ?_
    refine (broadcastInDim_apply _ bcast_S1000000_S1000000x1_0 _ (ix2 k (0 : Fin 1)) (ix1 k)
      (fun a => match a with | ⟨0, _⟩ => rfl)).trans ?_
    show n (gather_S100000_S1000000x1_S1000000_n_0_n_n_0_1_1.operandIdx (ix1 k) idx) = n (ix1 r)
    refine congrArg n (funext fun a => ?_)
    match a with
    | ⟨0, _⟩ => exact Fin.ext (operandIdx1_row idx k)
  -- the right factor: the factor broadcast along the columns, read at the gathered position, is `n` at that row too
  have hR : broadcastInDim S100000x64 ![0, 1] bcast_S100000x1_S100000x64_0_1
      (broadcastInDim S100000x1 ![0] bcast_S100000_S100000x1_0 n)
        (gather_S100000x64_S1000000x1_S1000000x64_1_0_n_n_0_1_164.operandIdx (ix2 k c) idx) = n (ix1 r) := by
    refine (broadcastInDim_apply _ bcast_S100000x1_S100000x64_0_1 _ _ (ix2 r (0 : Fin 1))
      (fun a => match a with | ⟨0, _⟩ => (operandIdx2_row idx k c).symm | ⟨1, _⟩ => rfl)).trans ?_
    exact broadcastInDim_apply _ bcast_S100000_S100000x1_0 _ (ix2 r (0 : Fin 1)) (ix1 r)
      (fun a => match a with | ⟨0, _⟩ => rfl)
  show FloatOps.mulf (e (gather_S100000x64_S1000000x1_S1000000x64_1_0_n_n_0_1_164.operandIdx (ix2 k c) idx)) _
     = FloatOps.mulf (e (gather_S100000x64_S1000000x1_S1000000x64_1_0_n_n_0_1_164.operandIdx (ix2 k c) idx)) _
  rw [hL, hR]

end Gather

/-! ## A quarter is a division by four -/

section Quarter

/-- The single-precision pattern `0x40800000` (exponent field 129, significand field 0) denotes the real `4` … -/
theorem ofBits_four : Ideal.ofBits .f32 0x40800000#32 = ((4 : ℝ) : EReal) := by
  simp [Ideal.ofBits, Ideal.ieee, -EReal.coe_mul]; norm_num

/-- … and `0x3E800000` (exponent field 125, significand field 0) the real `1/4`. -/
theorem ofBits_quarter : Ideal.ofBits .f32 0x3E800000#32 = ((1 / 4 : ℝ) : EReal) := by
  simp [Ideal.ofBits, Ideal.ieee, -EReal.coe_mul]; norm_num

/-- On every extended real, the infinities included, the product with the literal `0.25` is the host's quotient by the
    literal `4`: a division by a nonzero real is the product with its reciprocal. -/
theorem quarter (x : Elt Ideal .f32) :
    FloatOps.mulf x (FloatOps.ofBits (F := Ideal) .f32 0x3E800000#32)
      = FloatOps.hostDivf x (FloatOps.ofBits (F := Ideal) .f32 0x40800000#32) := by
  rw [Ideal.mulf_def, Ideal.hostDivf_def, Ideal.ofBits_def, Ideal.ofBits_def, ofBits_four, ofBits_quarter,
    Ideal.div_coe (by norm_num : (4 : ℝ) ≠ 0)]

/-- The same law for a whole array: scaling every element by `0.25` is the host's division by the splat of `4`. -/
theorem quarter_vec [Facts₀] (g : (⟨S100000x64, .f32⟩ : BufTy).Contents (Elt Ideal)) :
    (fun i => FloatOps.mulf (g i) (FloatOps.ofBits (F := Ideal) .f32 0x3E800000#32))
      = Host.divf (F := Ideal) g (broadcastInDim S100000x64 ![] Facts₀.bcast_S_S100000x64
          (constant (F := Ideal) S_ .f32 0x40800000#32)) := by
  funext i
  exact quarter (g i)

end Quarter

end Cert.KernelIdeal.GatherScale
-- ==== Proof.RefValue.lean ====
import proofs.«115500_j63857573757118_2_alg».proof.Proof.Gen.ReferenceIdeal.Read
import proofs.«115500_j63857573757118_2_alg».proof.Proof.Gen.KernelIdeal
import proofs.«115500_j63857573757118_2_alg».proof.Proof.Layers
import proofs.«115500_j63857573757118_2_alg».proof.Proof.Loss
import proofs.«115500_j63857573757118_2_alg».proof.Proof.GatherScale

/-!
# The reference program's stages are the layer arithmetic

The reference computes three degree-normalized propagation layers, averages the four embeddings and takes a softplus
ranking loss. Its stages, one per operation, are identified here with the layer functions: the only real differences
are that the reference scales the table by the source scale BEFORE gathering the rows (the layer functions scale the
gathered rows), and that it divides the final sum by four (the layer functions multiply by one quarter).
-/

noncomputable section

namespace Cert.ReferenceIdeal.RefValue

open Idealize.ShloMosaic Cert.ReferenceIdeal Cert.ReferenceIdeal.Gen Cert.ReferenceIdeal.Read

variable {F : FTy → Type} [FloatOps F]

/-- Scaling before the gather is scaling after it by the gathered scale: the two aggregations are one function. -/
theorem aggregatePre_eq (e : (⟨Cert.KernelIdeal.S100000x64, .f32⟩ : BufTy).Contents (Elt F))
    (x5 x6 : (⟨Cert.KernelIdeal.S1000000, .i32⟩ : BufTy).Contents (Elt F)) :
    Cert.KernelIdeal.Layers.aggregatePre (F := F) e x5 x6
      = Cert.KernelIdeal.Layers.aggregate e (Cert.KernelIdeal.Layers.edgeScale x5 x6) x5 x6 := by
  unfold Cert.KernelIdeal.Layers.aggregatePre Cert.KernelIdeal.Layers.aggregate Cert.KernelIdeal.Layers.scaleTable
    Cert.KernelIdeal.Layers.edgeScale
  exact congrArg _ (Cert.KernelIdeal.GatherScale.gather_scale e (Cert.KernelIdeal.Layers.nodeScale x5 x6)
    (Cert.KernelIdeal.Layers.wrapIdx x5)).symm

/-- The reference's loss stages are the loss function of its item-embedding stage: softplus of the negative score
    minus the positive score, each score the row sums of the gathered user rows times the gathered item rows. -/
theorem loss_eq (x0 : (⟨S100000x64, .f32⟩ : BufTy).Contents (Elt F)) (x1 : (⟨S50000x64, .f32⟩ : BufTy).Contents (Elt F))
    (x2 x3 x4 : (⟨S4096, .i32⟩ : BufTy).Contents (Elt F)) (x5 x6 : (⟨S1000000, .i32⟩ : BufTy).Contents (Elt F)) :
    val_main_v98 (F := F) x0 x1 x2 x3 x4 x5 x6
      = Cert.KernelIdeal.Loss.lossOf (val_main_v71 (F := F) x0 x5 x6) x1 x2 x3 x4 := by
  unfold val_main_v98 val_main_call0_v4 val_main_call0_v6 val_main_call0_v11 val_main_call0_v10 val_main_call0_v9
    val_main_call0_v8 val_main_call0_v7 val_main_call0_v3 val_main_call0_v1 val_main_call0_v5 val_main_call0_v2
    val_main_call0_v0 val_main_call0_cst val_main_v97 val_main_v96 val_main_v94 val_main_cst_25 val_main_cst_24
    val_main_v95 val_main_v93 val_main_v92 val_main_v85 val_main_v78 val_main_v91 val_main_v90 val_main_v89 val_main_v88
    val_main_c_23 val_main_v87 val_main_v86 val_main_c_22 val_main_v84 val_main_v83 val_main_v82 val_main_v81 val_main_c_21
    val_main_v80 val_main_v79 val_main_c_20 val_main_v77 val_main_v76 val_main_v75 val_main_v74 val_main_c_19 val_main_v73
    val_main_v72 val_main_c_18
  generalize val_main_v71 (F := F) x0 x5 x6 = item
  unfold Cert.KernelIdeal.Loss.lossOf Cert.KernelIdeal.Loss.softplus Cert.KernelIdeal.Loss.score
    Cert.KernelIdeal.Loss.zero4096 Cert.KernelIdeal.Loss.wrapBatch
  rfl

/-! ## The stages of the propagation layers -/

/-- The wrapped edge-source index (a negative entry counts from the end), as the reference computes it before each
    gather … -/
theorem wrap7_eq (x5 : (⟨S1000000, .i32⟩ : BufTy).Contents (Elt F)) :
    val_main_v7 (F := F) x5 = Cert.KernelIdeal.Layers.wrapIdx x5 := by
  unfold val_main_v7 val_main_v6 val_main_v5 val_main_v4 val_main_c_1 val_main_v3 val_main_v2 val_main_c
    Cert.KernelIdeal.Layers.wrapIdx
  rfl
/-- … and the wrapped edge-target index before the second degree count. -/
theorem wrap15_eq (x6 : (⟨S1000000, .i32⟩ : BufTy).Contents (Elt F)) :
    val_main_v15 (F := F) x6 = Cert.KernelIdeal.Layers.wrapIdx x6 := by
  unfold val_main_v15 val_main_v14 val_main_v13 val_main_v12 val_main_c_4 val_main_v11 val_main_v10 val_main_c_3
    Cert.KernelIdeal.Layers.wrapIdx
  rfl
theorem wrap32_eq (x5 : (⟨S1000000, .i32⟩ : BufTy).Contents (Elt F)) :
    val_main_v32 (F := F) x5 = Cert.KernelIdeal.Layers.wrapIdx x5 := by
  unfold val_main_v32 val_main_v31 val_main_v30 val_main_v29 val_main_c_9 val_main_v28 val_main_v27 val_main_c_8
    Cert.KernelIdeal.Layers.wrapIdx
  rfl
theorem wrap47_eq (x5 : (⟨S1000000, .i32⟩ : BufTy).Contents (Elt F)) :
    val_main_v47 (F := F) x5 = Cert.KernelIdeal.Layers.wrapIdx x5 := by
  unfold val_main_v47 val_main_v46 val_main_v45 val_main_v44 val_main_c_12 val_main_v43 val_main_v42 val_main_c_11
    Cert.KernelIdeal.Layers.wrapIdx
  rfl
theorem wrap62_eq (x5 : (⟨S1000000, .i32⟩ : BufTy).Contents (Elt F)) :
    val_main_v62 (F := F) x5 = Cert.KernelIdeal.Layers.wrapIdx x5 := by
  unfold val_main_v62 val_main_v61 val_main_v60 val_main_v59 val_main_c_15 val_main_v58 val_main_v57 val_main_c_14
    Cert.KernelIdeal.Layers.wrapIdx
  rfl

/-- Each node's scale: (in-degree + out-degree, at least one) to the power -1/2. -/
theorem nodeScale_eq (x5 x6 : (⟨S1000000, .i32⟩ : BufTy).Contents (Elt F)) :
    val_main_v21 (F := F) x5 x6 = Cert.KernelIdeal.Layers.nodeScale x5 x6 := by
  unfold val_main_v21 val_main_v20 val_main_cst_6 val_main_v19 val_main_v18 val_main_cst_5 val_main_v17 val_main_v16
    val_main_v9 val_main_cst_2 val_main_v8 val_main_v1 val_main_cst_0 val_main_v0 val_main_cst
  rw [wrap7_eq, wrap15_eq]
  unfold Cert.KernelIdeal.Layers.nodeScale
  rfl

/-- The scale table, which the reference rebuilds before every product with it. -/
theorem table_eq (x5 x6 : (⟨S1000000, .i32⟩ : BufTy).Contents (Elt F)) :
    val_main_v25 (F := F) x5 x6 = Cert.KernelIdeal.Layers.scaleTable x5 x6 := by
  unfold val_main_v25 val_main_v22
  rw [nodeScale_eq]
  unfold Cert.KernelIdeal.Layers.scaleTable
  rfl
theorem table37_eq (x5 x6 : (⟨S1000000, .i32⟩ : BufTy).Contents (Elt F)) :
    val_main_v37 (F := F) x5 x6 = Cert.KernelIdeal.Layers.scaleTable x5 x6 := (table_eq x5 x6)
theorem table40_eq (x5 x6 : (⟨S1000000, .i32⟩ : BufTy).Contents (Elt F)) :
    val_main_v40 (F := F) x5 x6 = Cert.KernelIdeal.Layers.scaleTable x5 x6 := (table_eq x5 x6)
theorem table52_eq (x5 x6 : (⟨S1000000, .i32⟩ : BufTy).Contents (Elt F)) :
    val_main_v52 (F := F) x5 x6 = Cert.KernelIdeal.Layers.scaleTable x5 x6 := (table_eq x5 x6)
theorem table55_eq (x5 x6 : (⟨S1000000, .i32⟩ : BufTy).Contents (Elt F)) :
    val_main_v55 (F := F) x5 x6 = Cert.KernelIdeal.Layers.scaleTable x5 x6 := (table_eq x5 x6)
theorem table67_eq (x5 x6 : (⟨S1000000, .i32⟩ : BufTy).Contents (Elt F)) :
    val_main_v67 (F := F) x5 x6 = Cert.KernelIdeal.Layers.scaleTable x5 x6 := (table_eq x5 x6)

/-- One reference layer — scale the table by the source scale, gather at the sources, sum at the targets, scale by
    the target scale — is the layer function of the same table. -/
theorem layer_eq (e : (⟨S100000x64, .f32⟩ : BufTy).Contents (Elt F)) (x5 x6 : (⟨S1000000, .i32⟩ : BufTy).Contents (Elt F)) :
    mulf (Cert.KernelIdeal.Layers.aggregatePre (F := F) e x5 x6) (Cert.KernelIdeal.Layers.scaleTable x5 x6)
      = Cert.KernelIdeal.Layers.layer e x5 x6 := by
  rw [aggregatePre_eq]
  rfl

theorem pre1_eq (x0 : (⟨S100000x64, .f32⟩ : BufTy).Contents (Elt F)) (x5 x6 : (⟨S1000000, .i32⟩ : BufTy).Contents (Elt F)) :
    val_main_v36 (F := F) x0 x5 x6 = Cert.KernelIdeal.Layers.aggregatePre x0 x5 x6 := by
  unfold val_main_v36 val_main_v35 val_main_v34 val_main_cst_10 val_main_v33 val_main_v26
  rw [table_eq, wrap32_eq]
  unfold Cert.KernelIdeal.Layers.aggregatePre Cert.KernelIdeal.Layers.zeros
  rfl

theorem emb1_eq (x0 : (⟨S100000x64, .f32⟩ : BufTy).Contents (Elt F)) (x5 x6 : (⟨S1000000, .i32⟩ : BufTy).Contents (Elt F)) :
    val_main_v38 (F := F) x0 x5 x6 = Cert.KernelIdeal.Layers.emb1 x0 x5 x6 := by
  unfold val_main_v38
  rw [pre1_eq, table37_eq, layer_eq]
  rfl

theorem acc2_eq (x0 : (⟨S100000x64, .f32⟩ : BufTy).Contents (Elt F)) (x5 x6 : (⟨S1000000, .i32⟩ : BufTy).Contents (Elt F)) :
    val_main_v39 (F := F) x0 x5 x6 = Cert.KernelIdeal.Layers.acc2 x0 x5 x6 := by
  unfold val_main_v39 val_main_v24 val_main_v23 val_main_cst_7
  rw [emb1_eq]
  unfold Cert.KernelIdeal.Layers.acc2 Cert.KernelIdeal.Layers.acc1 Cert.KernelIdeal.Layers.zeros
  rfl

theorem pre2_eq (x0 : (⟨S100000x64, .f32⟩ : BufTy).Contents (Elt F)) (x5 x6 : (⟨S1000000, .i32⟩ : BufTy).Contents (Elt F)) :
    val_main_v51 (F := F) x0 x5 x6 = Cert.KernelIdeal.Layers.aggregatePre (Cert.KernelIdeal.Layers.emb1 x0 x5 x6) x5 x6 := by
  unfold val_main_v51 val_main_v50 val_main_v49 val_main_cst_13 val_main_v48 val_main_v41
  rw [table40_eq, wrap47_eq, emb1_eq]
  unfold Cert.KernelIdeal.Layers.aggregatePre Cert.KernelIdeal.Layers.zeros
  rfl

theorem emb2_eq (x0 : (⟨S100000x64, .f32⟩ : BufTy).Contents (Elt F)) (x5 x6 : (⟨S1000000, .i32⟩ : BufTy).Contents (Elt F)) :
    val_main_v53 (F := F) x0 x5 x6 = Cert.KernelIdeal.Layers.emb2 x0 x5 x6 := by
  unfold val_main_v53
  rw [pre2_eq, table52_eq, layer_eq]
  rfl

theorem acc3_eq (x0 : (⟨S100000x64, .f32⟩ : BufTy).Contents (Elt F)) (x5 x6 : (⟨S1000000, .i32⟩ : BufTy).Contents (Elt F)) :
    val_main_v54 (F := F) x0 x5 x6 = Cert.KernelIdeal.Layers.acc3 x0 x5 x6 := by
  unfold val_main_v54
  rw [acc2_eq, emb2_eq]
  rfl

theorem pre3_eq (x0 : (⟨S100000x64, .f32⟩ : BufTy).Contents (Elt F)) (x5 x6 : (⟨S1000000, .i32⟩ : BufTy).Contents (Elt F)) :
    val_main_v66 (F := F) x0 x5 x6 = Cert.KernelIdeal.Layers.aggregatePre (Cert.KernelIdeal.Layers.emb2 x0 x5 x6) x5 x6 := by
  unfold val_main_v66 val_main_v65 val_main_v64 val_main_cst_16 val_main_v63 val_main_v56
  rw [table55_eq, wrap62_eq, emb2_eq]
  unfold Cert.KernelIdeal.Layers.aggregatePre Cert.KernelIdeal.Layers.zeros
  rfl

theorem emb3_eq (x0 : (⟨S100000x64, .f32⟩ : BufTy).Contents (Elt F)) (x5 x6 : (⟨S1000000, .i32⟩ : BufTy).Contents (Elt F)) :
    val_main_v68 (F := F) x0 x5 x6 = Cert.KernelIdeal.Layers.emb3 x0 x5 x6 := by
  unfold val_main_v68
  rw [pre3_eq, table67_eq, layer_eq]
  rfl

/-! ## The average and the result, at the extended reals -/

/-- The reference's item embedding, (running sum + last layer) / 4, is the layer functions' (running sum + last
    layer) · 1/4 on the extended reals. -/
theorem item_eq (x0 : (⟨S100000x64, .f32⟩ : BufTy).Contents (Elt Ideal)) (x5 x6 : (⟨S1000000, .i32⟩ : BufTy).Contents (Elt Ideal)) :
    val_main_v71 (F := Ideal) x0 x5 x6 = Cert.KernelIdeal.Layers.itemQuarter (F := Ideal) x0 x5 x6 := by
  unfold val_main_v71 val_main_v69 val_main_v70 val_main_cst_17
  rw [acc3_eq, emb3_eq]
  exact (Cert.KernelIdeal.GatherScale.quarter_vec
    (addf (F := Ideal) (s := Cert.KernelIdeal.S100000x64) (φ := .f32)
      (Cert.KernelIdeal.Layers.acc3 (F := Ideal) x0 x5 x6) (Cert.KernelIdeal.Layers.emb3 (F := Ideal) x0 x5 x6))).symm

/-- The reference's result is the loss function of the layer functions' item embedding. -/
theorem result_eq (x0 : (⟨S100000x64, .f32⟩ : BufTy).Contents (Elt Ideal)) (x1 : (⟨S50000x64, .f32⟩ : BufTy).Contents (Elt Ideal))
    (x2 x3 x4 : (⟨S4096, .i32⟩ : BufTy).Contents (Elt Ideal)) (x5 x6 : (⟨S1000000, .i32⟩ : BufTy).Contents (Elt Ideal)) :
    val_main_v98 (F := Ideal) x0 x1 x2 x3 x4 x5 x6
      = Cert.KernelIdeal.Loss.lossOf (Cert.KernelIdeal.Layers.itemQuarter (F := Ideal) x0 x5 x6) x1 x2 x3 x4 :=
  (loss_eq x0 x1 x2 x3 x4 x5 x6).trans (by rw [item_eq])

end Cert.ReferenceIdeal.RefValue
-- ==== Proof.lean ====
/-
  The certificate: a degree-normalized three-layer graph propagation followed by a pairwise ranking loss, computed by
  a program of four elementwise kernel regions among host operations, against its plain reference.

  Both programs compute, with n the node scale (in-degree + out-degree, at least 1)^(-1/2), the embeddings
  E₀ = the entity table, E₍ₖ₊₁₎ = (sum over edges into a node of E_k(source) · n(source)) · n(node), the running sum
  ((0 + E₀) + E₁) + E₂, then (running sum + E₃) / 4, and the softplus loss of two inner-product scores read off that
  table. They differ in three ways, none of which changes a value on the extended reals: the kernel program scales a
  gathered row by the gathered scale where the reference gathers the scaled row (equal index by index: the two
  gathers read the same clamped row); it multiplies by the dyadic 1/4 where the reference divides by 4; and its
  kernels work on the tables re-laid from (100000, 64) to (50000, 128), which moves no element.

  The kernel program's run and the contents of its buffers at each cut are in KernelRun and KernelValue (over
  RegionArrays: each region's output arrays are the pointwise sum or product of its input arrays; and Stretches: the
  host operations between regions); the reference's stages are identified with the same functions in RefValue (over
  GatherScale: the gather law and the quarter law). The idealization rewrote no operation, so it is preserved trivially.
-/
import proofs.«115500_j63857573757118_2_alg».proof.Defs
import proofs.«115500_j63857573757118_2_alg».proof.Proof.Gen.Kernel
import proofs.«115500_j63857573757118_2_alg».proof.Proof.Gen.Kernel.Skeleton
import proofs.«115500_j63857573757118_2_alg».proof.Proof.Gen.Kernel.Launch
import proofs.«115500_j63857573757118_2_alg».proof.Proof.Gen.Kernel.Points
import proofs.«115500_j63857573757118_2_alg».proof.Proof.Gen.Kernel.Frame
import proofs.«115500_j63857573757118_2_alg».proof.Proof.Gen.KernelIdeal
import proofs.«115500_j63857573757118_2_alg».proof.Proof.Gen.KernelIdeal.Skeleton
import proofs.«115500_j63857573757118_2_alg».proof.Proof.Gen.KernelIdeal.Launch
import proofs.«115500_j63857573757118_2_alg».proof.Proof.Gen.KernelIdeal.Points
import proofs.«115500_j63857573757118_2_alg».proof.Proof.Gen.KernelIdeal.Frame
import proofs.«115500_j63857573757118_2_alg».proof.Proof.Gen.ReferenceIdeal
import proofs.«115500_j63857573757118_2_alg».proof.Proof.Gen.ReferenceIdeal.Run
import proofs.«115500_j63857573757118_2_alg».proof.Proof.Gen.ReferenceIdeal.Read
import proofs.«115500_j63857573757118_2_alg».proof.Proof.Gen.Pre_finite_inputs
import proofs.«115500_j63857573757118_2_alg».proof.Proof.KernelRun
import proofs.«115500_j63857573757118_2_alg».proof.Proof.KernelValue
import proofs.«115500_j63857573757118_2_alg».proof.Proof.RefValue
import Idealize.ShloMosaic.Adequacy
import Idealize.ShloMosaic.Init

noncomputable section

namespace Cert.Proof

open Idealize.ShloMosaic Idealize.SL.Sem Cert.Kernel

/-- The printed kernel program runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the loss of the same item table, (running sum + third embedding) · ¼,
    of arguments that agree. -/
theorem algebraic : Cert.algebraic_KernelIdeal_ReferenceIdeal := by
  intro m ρ m' ρ' _ hagree
  refine ⟨fun c => Cert.KernelIdeal.Loss.lossOf (F := Ideal)
      (Cert.KernelIdeal.Layers.itemQuarter (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Walk.result (F := Ideal) m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v98_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
